-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x2x9 : Shape := ⟨4, ![16384, 32, 2, 9]⟩
abbrev S16384x32 : Shape := ⟨2, ![16384, 32]⟩
abbrev S64x9 : Shape := ⟨2, ![64, 9]⟩
abbrev S64 : Shape := ⟨1, ![64]⟩
abbrev S_ : Shape := ⟨0, ![]⟩

class Facts : Prop where
  bcast_S_S16384x32x2x9 : S_.BroadcastsInDim S16384x32x2x9 (![] : Fin 0 → Fin S16384x32x2x9.rank)
  reducesTo_S16384x32x2x9_S_d0_1_2_3 : S16384x32x2x9.ReducesTo [0, 1, 2, 3] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x32x2x9 .f32) (main_arg1 : IVec S16384x32 32) (main_arg2 : FVec F S64x9 .f32) (main_arg3 : FVec F S64 .f32) (main_arg4 : FVec F S64 .f32) : IVec S_ 1 :=
  let main_v0 : FVec F S16384x32x2x9 .f32 := Host.absf main_arg0
  let main_cst : FVec F S_ .f32 := constant S_ .f32 0x7F800000#32
  let main_v1 : FVec F S16384x32x2x9 .f32 := broadcastInDim S16384x32x2x9 ![] bcast_S_S16384x32x2x9 main_cst
  let main_v2 : IVec S16384x32x2x9 1 := cmpf .olt main_v0 main_v1
  let main_c : IVec S_ 1 := constantI S_ 1 1#1
  let main_v3 : IVec S_ 1 := (fun x v => Host.reduce IntOp.andi x v reducesTo_S16384x32x2x9_S_d0_1_2_3 h_S_) main_v2 main_c
  let main_v4 : FVec F S64x9 .f32 := Host.absf main_arg2
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x32x2x9 : Shape := ⟨4, ![16384, 32, 2, 9]⟩
abbrev S16384x32 : Shape := ⟨2, ![16384, 32]⟩
abbrev S64x9 : Shape := ⟨2, ![64, 9]⟩
abbrev S64 : Shape := ⟨1, ![64]⟩
abbrev S1048576x9 : Shape := ⟨2, ![1048576, 9]⟩
abbrev S9x64 : Shape := ⟨2, ![9, 64]⟩
abbrev S1x64 : Shape := ⟨2, ![1, 64]⟩
abbrev S32768x9 : Shape := ⟨2, ![32768, 9]⟩
abbrev S32768x64 : Shape := ⟨2, ![32768, 64]⟩
abbrev S512x64x64 : Shape := ⟨3, ![512, 64, 64]⟩
abbrev S512x64 : Shape := ⟨2, ![512, 64]⟩
abbrev S_ : Shape := ⟨0, ![]⟩
abbrev S32x2 : Shape := ⟨2, ![32, 2]⟩
abbrev S16384x64x32 : Shape := ⟨3, ![16384, 64, 32]⟩
abbrev S16384x9 : Shape := ⟨2, ![16384, 9]⟩
abbrev S256x64x32 : Shape := ⟨3, ![256, 64, 32]⟩
abbrev S16384x64 : Shape := ⟨2, ![16384, 64]⟩
abbrev S256x32x2x64 : Shape := ⟨4, ![256, 32, 2, 64]⟩
abbrev S1x32x2x1 : Shape := ⟨4, ![1, 32, 2, 1]⟩
abbrev S256x32x64 : Shape := ⟨3, ![256, 32, 64]⟩

abbrev nBuf : Space → Nat
  | .hbm => 30
  | .vmem => 14
  | .smem => 0
  | _ => 0

abbrev bufTy : (tb : Table) → Fin (tcTables nBuf tb) → BufTy
  | .hbm, ⟨0, _⟩ => ⟨S16384x32x2x9, .f32⟩
  | .hbm, ⟨1, _⟩ => ⟨S16384x32, .i32⟩
  | .hbm, ⟨2, _⟩ => ⟨S64x9, .f32⟩
  | .hbm, ⟨3, _⟩ => ⟨S64, .f32⟩
  | .hbm, ⟨4, _⟩ => ⟨S64, .f32⟩
  | .hbm, ⟨5, _⟩ => ⟨S1048576x9, .f32⟩
  | .hbm, ⟨6, _⟩ => ⟨S9x64, .f32⟩
  | .hbm, ⟨7, _⟩ => ⟨S1x64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S32x2, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S32x2, .f32⟩
  | .hbm, ⟨29, _⟩ => ⟨S16384x64x32, .f32⟩
  | .local _ .vmem, ⟨0, _⟩ => ⟨S32768x9, .f32⟩
  | .local _ .vmem, ⟨1, _⟩ => ⟨S32768x9, .f32⟩
  | .local _ .vmem, ⟨2, _⟩ => ⟨S9x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S16384x9, .f32⟩
  | .local _ .vmem, ⟨8, _⟩ => ⟨S16384x9, .f32⟩
  | .local _ .vmem, ⟨9, _⟩ => ⟨S9x64, .f32⟩
  | .local _ .vmem, ⟨10, _⟩ => ⟨S32x2, .f32⟩
  | .local _ .vmem, ⟨11, _⟩ => ⟨S32x2, .f32⟩
  | .local _ .vmem, ⟨12, _⟩ => ⟨S256x64x32, .f32⟩
  | .local _ .vmem, ⟨13, _⟩ => ⟨S256x64x32, .f32⟩
  | _, _ => ⟨S16384x32x2x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v28 : BitVec 1 := Scalar.cmpi .eq arg0 c31_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32768x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16384x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S16384x32x2x9_S1048576x9 : S16384x32x2x9.ShapeCasts S1048576x9
  transposes_S64x9_S9x64_1_0 : S64x9.Transposes [1, 0] S9x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S32768x9_S32768x9_0_0 : ∀ a, (![0, 0] : Fin 2 → Nat) a + S32768x9.size a ≤ S32768x9.size a
  h_S32768x9 : 0 < S32768x9.numel
  shapeCasts_S32768x9_S32768x9 : S32768x9.ShapeCasts S32768x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  shapeCasts_S9x64_S9x64 : S9x64.ShapeCasts S9x64
  shapeCasts_S32768x64_S512x64x64 : S32768x64.ShapeCasts S512x64x64
  reduces_S512x64x64_S512x64 : S512x64x64.Reduces [2] S512x64
  reduces_S512x64_S64 : S512x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  shapeCasts_S64_S32x2 : S64.ShapeCasts S32x2
  inb_S16384x9_S16384x9_0_0 : ∀ a, (![0, 0] : Fin 2 → Nat) a + S16384x9.size a ≤ S16384x9.size a
  h_S16384x9 : 0 < S16384x9.numel
  shapeCasts_S16384x9_S16384x9 : S16384x9.ShapeCasts S16384x9
  shapeCasts_S16384x64_S256x32x2x64 : S16384x64.ShapeCasts S256x32x2x64
  inb_S32x2_S32x2_0_0 : ∀ a, (![0, 0] : Fin 2 → Nat) a + S32x2.size a ≤ S32x2.size a
  h_S32x2 : 0 < S32x2.numel
  shapeCasts_S32x2_S32x2 : S32x2.ShapeCasts S32x2
  shapeCasts_S32x2_S1x32x2x1 : S32x2.ShapeCasts S1x32x2x1
  shapeCasts_S1x32x2x1_S1x32x2x1 : S1x32x2x1.ShapeCasts S1x32x2x1
  broadcasts_S1x32x2x1_S256x32x2x64 : S1x32x2x1.Broadcasts S256x32x2x64
  reduces_S256x32x2x64_S256x32x64 : S256x32x2x64.Reduces [2] S256x32x64
  transposes_S256x32x64_p0_2_1_S256x64x32 : S256x32x64.Transposes [0, 2, 1] S256x64x32
  inb_S256x64x32_S256x64x32_0_0_0 : ∀ a, (![0, 0, 0] : Fin 3 → Nat) a + S256x64x32.size a ≤ S256x64x32.size a
  h_S256x64x32 : 0 < S256x64x32.numel
  dot_S32768x9_S9x64_S32768x64_1_0_0_1_n_n_wf : DotDims.WF S32768x9 S9x64 S32768x64 [1] [0] [0] [1] [] []
  dot_S16384x9_S9x64_S16384x64_1_0_0_1_n_n_wf : DotDims.WF S16384x9 S9x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x9.size a ≤ S1048576x9.size a
  hwx0_0 : ∀ i : grid0.Coords, EltTy.bits .f32 = 32 ∨ (Rect.block (s := S1048576x9) S32768x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x9.size a ≤ S1048576x9.size a
  hwx1_0 : ∀ i : grid1.Coords, EltTy.bits .f32 = 32 ∨ (Rect.block (s := S1048576x9) S16384x9.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x64.size a ≤ S9x64.size a
  hwx1_1 : ∀ i : grid1.Coords, EltTy.bits .f32 = 32 ∨ (Rect.block (s := S9x64) S9x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x2.size a ≤ S32x2.size a
  hwx1_3 : ∀ i : grid1.Coords, EltTy.bits .f32 = 32 ∨ (Rect.block (s := S32x2) S32x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64x32.size a ≤ S16384x64x32.size a
  hwx1_4 : ∀ i : grid1.Coords, EltTy.bits .f32 = 32 ∨ (Rect.block (s := S16384x64x32) S256x64x32.size (cc1_transform_4 i) (hinb1_4 i)).WholeWords (EltTy.packing .f32)

variable [Facts₀]

def dot_S32768x9_S9x64_S32768x64_1_0_0_1_n_n : DotDims S32768x9 S9x64 S32768x64 where
  lhsContracting := [1]
  rhsContracting := [0]
  lhsNonContracting := [0]
  rhsNonContracting := [1]
  lhsBatch := []
  rhsBatch := []
  wf := dot_S32768x9_S9x64_S32768x64_1_0_0_1_n_n_wf
def dot_S16384x9_S9x64_S16384x64_1_0_0_1_n_n : DotDims S16384x9 S9x64 S16384x64 where
  lhsContracting := [1]
  rhsContracting := [0]
  lhsNonContracting := [0]
  rhsNonContracting := [1]
  lhsBatch := []
  rhsBatch := []
  wf := dot_S16384x9_S9x64_S16384x64_1_0_0_1_n_n_wf

abbrev win0_0 : Pipeline.Window sig grid0 :=
  Pipeline.Window.ofSpec (Memref.whole main_v0) S32768x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S16384x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S9x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S32x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x64x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x32x2x9 : Shape := ⟨4, ![16384, 32, 2, 9]⟩
abbrev S16384x32 : Shape := ⟨2, ![16384, 32]⟩
abbrev S64x9 : Shape := ⟨2, ![64, 9]⟩
abbrev S64 : Shape := ⟨1, ![64]⟩
abbrev S16384x32x2x64 : Shape := ⟨4, ![16384, 32, 2, 64]⟩
abbrev S16384x64x32x2 : Shape := ⟨4, ![16384, 64, 32, 2]⟩
abbrev S1048576x64 : Shape := ⟨2, ![1048576, 64]⟩
abbrev S_ : Shape := ⟨0, ![]⟩
abbrev S1x64 : Shape := ⟨2, ![1, 64]⟩
abbrev S16384x64x32 : Shape := ⟨3, ![16384, 64, 32]⟩

abbrev nBuf : Space → Nat
  | .hbm => 44
  | .vmem => 0
  | .smem => 0
  | _ => 0

abbrev bufTy : (tb : Table) → Fin (tcTables nBuf tb) → BufTy
  | .hbm, ⟨0, _⟩ => ⟨S16384x32x2x9, .f32⟩
  | .hbm, ⟨1, _⟩ => ⟨S16384x32, .i32⟩
  | .hbm, ⟨2, _⟩ => ⟨S64x9, .f32⟩
  | .hbm, ⟨3, _⟩ => ⟨S64, .f32⟩
  | .hbm, ⟨4, _⟩ => ⟨S64, .f32⟩
  | .hbm, ⟨5, _⟩ => ⟨S16384x32x2x64, .f32⟩
  | .hbm, ⟨6, _⟩ => ⟨S16384x64x32x2, .f32⟩
  | .hbm, ⟨7, _⟩ => ⟨S1048576x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S1048576x64, .f32⟩
  | .hbm, ⟨15, _⟩ => ⟨S1048576x64, .f32⟩
  | .hbm, ⟨16, _⟩ => ⟨S1048576x64, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S1048576x64, .f32⟩
  | .hbm, ⟨24, _⟩ => ⟨S1048576x64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S1048576x64, .f32⟩
  | .hbm, ⟨31, _⟩ => ⟨S1048576x64, .f32⟩
  | .hbm, ⟨32, _⟩ => ⟨S1x64, .f32⟩
  | .hbm, ⟨33, _⟩ => ⟨S1048576x64, .f32⟩
  | .hbm, ⟨34, _⟩ => ⟨S1048576x64, .f32⟩
  | .hbm, ⟨35, _⟩ => ⟨S1x64, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S16384x64x32x2, .f32⟩
  | .hbm, ⟨42, _⟩ => ⟨S_, .f32⟩
  | .hbm, ⟨43, _⟩ => ⟨S16384x64x32, .f32⟩
  | _, _ => ⟨S16384x32x2x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  transposes_S16384x32x2x64_S16384x64x32x2_0_3_1_2 : S16384x32x2x64.Transposes [0, 3, 1, 2] S16384x64x32x2
  shapeCasts_S16384x64x32x2_S1048576x64 : S16384x64x32x2.ShapeCasts S1048576x64
  reducesTo_S1048576x64_S64_d0 : S1048576x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  shapeCasts_S1048576x64_S16384x64x32x2 : S1048576x64.ShapeCasts S16384x64x32x2
  reducesTo_S16384x64x32x2_S16384x64x32_d3 : S16384x64x32x2.ReducesTo [3] S16384x64x32
  dot_S16384x32x2x9_S64x9_S16384x32x2x64_3_1_012_0_n_n_wf : DotDims.WF S16384x32x2x9 S64x9 S16384x32x2x64 [3] [1] [0, 1, 2] [0] [] []

variable [Facts₀]

def dot_S16384x32x2x9_S64x9_S16384x32x2x64_3_1_012_0_n_n : DotDims S16384x32x2x9 S64x9 S16384x32x2x64 where
  lhsContracting := [3]
  rhsContracting := [1]
  lhsNonContracting := [0, 1, 2]
  rhsNonContracting := [0]
  lhsBatch := []
  rhsBatch := []
  wf := dot_S16384x32x2x9_S64x9_S16384x32x2x64_3_1_012_0_n_n_wf

class Facts : Prop extends Facts₀ where

variable [Facts]
-- ==== Proof.KRegion0Runs.lean ====
/- Region 0 (the statistics pass, pipeline 0): what the three control cases of its body share. The body
   accumulates, in two scratch rows carried from grid point to grid point, the per-position sum and sum of squares
   of the projected block; it clears the rows at the first point and copies them to the two output windows at the
   last. Here: each window's block at a point, the two branch conditions in closed form over the grid, where the
   output windows are idle, and the region invariant with the scratch rows named. -/
import proofs.«173164_j41257455845539_2_alg».proof.Proof.Gen.Kernel.Launch
import proofs.«173164_j41257455845539_2_alg».proof.Proof.Gen.Kernel.Skeleton
import proofs.«173164_j41257455845539_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place: unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the whole weight matrix, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (clear the scratch rows), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition of the body's second conditional (copy the scratch rows out), from the grid coordinates. -/
abbrev cond0_1 (i : grid0.Coords) : Prop := k0_cond2 i = 1#1
/-- It holds at the last point only — decided over the grid. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the second conditional is not taken the two output windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each output window, through which its contents are stated (the choice does not matter). -/
abbrev VO0_2 : View sig .tc .vmem S1x64 .f32 := (Memref.whole cc0_stg2_0 : Memref sig .tc .vmem S1x64 .f32).view
abbrev VO0_3 : View sig .tc .vmem S1x64 .f32 := (Memref.whole cc0_stg3_0 : Memref sig .tc .vmem S1x64 .f32).view
/-- Each window's current staging memref at point `t`, spelled as the pipeline passes it, and its wholeness. -/
abbrev ms0_0 (t : Fin cfg0.N) : Memref sig .tc .vmem S32768x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
/-- The two scratch rows: whole scoped buffers of the kernel's own, passed beside the windows. -/
abbrev scM0_0 : Memref sig .tc .vmem S1x64 .f32 := Memref.whole cc0_scratch0
abbrev scM0_1 : Memref sig .tc .vmem S1x64 .f32 := Memref.whole cc0_scratch1
/-- The scratch rows as views: what they hold is stated through these. -/
abbrev VS0_0 : View sig .tc .vmem S1x64 .f32 := scM0_0.view
abbrev VS0_1 : View sig .tc .vmem S1x64 .f32 := scM0_1.view

/-- The scoped buffers of the core that are neither a staging buffer of this pipeline nor one of its scratch rows
    (the other pipeline's staging buffers), each whole at some contents: carried through the region untouched. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the two scratch rows as memrefs owned at some contents: what the body obligation
    hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR0 c) ∗ (∃ r, prngReg c r)) := by
  unfold Pipeline.ΦA restR0; rw [scopedRest0_eq]; simp only [scM0_0, scM0_1, owns_whole]; try rfl

end Cert.Kernel.Hand

end
-- ==== Proof.KRegion0RunA.lean ====
/- Region 0, the body's run at the FIRST grid point (the scratch rows are cleared, then the block's sums added;
   nothing is copied out): the body's triple, with the pieces each scratch row ends with as its witness. -/
import proofs.«173164_j41257455845539_2_alg».proof.Proof.KRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- CASE A (first conditional taken, second not). On whole memrefs — the inputs' staging buffers at their contents,
    the two output windows' buffers (idle here) at contents handed back untouched, the two scratch rows at anything —
    the body runs to the continuation holding the inputs and outputs as they were and each scratch row with its
    pieces written. -/
noncomputable def kernelRun0_A (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) :
    Σ' (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KRegion0RunB.lean ====
/- Region 0, the body's run at a MIDDLE grid point (the block's sums are added to the scratch rows as the point
   before left them; nothing is cleared, nothing copied out). -/
import proofs.«173164_j41257455845539_2_alg».proof.Proof.KRegion0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- CASE B (neither conditional taken). On whole memrefs — the inputs' staging buffers at their contents, the two
    output windows' buffers (idle here) at contents handed back untouched, the two scratch rows at the contents the
    point before left — the body runs to the continuation holding the inputs and outputs as they were and each
    scratch row with its pieces written. -/
noncomputable def kernelRun0_B (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) :
    Σ' (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KRegion0RunC.lean ====
/- Region 0, the body's run at the LAST grid point (the block's sums are added to the scratch rows as the point
   before left them, and the two rows are then copied to the two output windows' buffers). -/
import proofs.«173164_j41257455845539_2_alg».proof.Proof.KRegion0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- CASE C (first conditional not taken, second taken). On whole memrefs — the inputs' staging buffers at their
    contents, the two output windows' buffers at anything, the two scratch rows at the contents the point before
    left — the body runs to the continuation holding the inputs as they were and each output buffer and each scratch
    row with its pieces written. -/
noncomputable def kernelRun0_C (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.KRegion0.lean ====
/- Region 0 (the statistics pass, pipeline 0), the rest of its half of the frame: what the two output windows'
   buffers and the two scratch rows hold per case and point by point, the proof data, the body obligation, and the
   two entailments between the class invariant and the region invariant. Stated at the region-entry contents `V`,
   generic in the float instance. -/
import proofs.«173164_j41257455845539_2_alg».proof.Proof.KRegion0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A's pieces for the first scratch row tile it (one whole-row store last), so they cover it. -/
theorem scover0_A_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) (y : S1x64.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S1x64.size (by sl_kernel_rfl) y

/-- What case A leaves in the first scratch row: its pieces read back. -/
def sout0_A_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) : Vec F S1x64 .f32 :=
  VS0_0.read (Elt F) (VS0_0.writes (Elt F) VS0_0.junk (kernelRun0_A c i arg1 harg1 arg2 harg2 arg3 harg3 arg4 harg4 arg5 harg5 arg6 harg6 hc0 hc1 x0 x1).1)

/-- Case A's pieces for the second scratch row tile it (one whole-row store last), so they cover it. -/
theorem scover0_A_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) (y : S1x64.Idx) :
    ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S1x64.size (by sl_kernel_rfl) y

/-- What case A leaves in the second scratch row: its pieces read back. -/
def sout0_A_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) : Vec F S1x64 .f32 :=
  VS0_1.read (Elt F) (VS0_1.writes (Elt F) VS0_1.junk (kernelRun0_A c i arg1 harg1 arg2 harg2 arg3 harg3 arg4 harg4 arg5 harg5 arg6 harg6 hc0 hc1 x0 x1).2.1)

/-- Case B's pieces for the first scratch row tile it (one whole-row store last), so they cover it. -/
theorem scover0_B_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 hc0 hc1 x0 x1 xs0 xs1).1, y ∈ pc.1.set :=
  View.cover_of_tiledL (kernelRun0_B c i arg1 harg1 arg2 harg2 arg3 harg3 arg4 harg4 arg5 harg5 arg6 harg6 hc0 hc1 x0 x1 xs0 xs1).1 S1x64.size (by sl_kernel_rfl) y

/-- What case B leaves in the first scratch row: its pieces read back. -/
def sout0_B_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 hc0 hc1 x0 x1 xs0 xs1).1)

/-- Case B's pieces for the second scratch row tile it (one whole-row store last), so they cover it. -/
theorem scover0_B_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 hc0 hc1 x0 x1 xs0 xs1).2.1, y ∈ pc.1.set :=
  View.cover_of_tiledL (kernelRun0_B c i arg1 harg1 arg2 harg2 arg3 harg3 arg4 harg4 arg5 harg5 arg6 harg6 hc0 hc1 x0 x1 xs0 xs1).2.1 S1x64.size (by sl_kernel_rfl) y

/-- What case B leaves in the second scratch row: its pieces read back. -/
def sout0_B_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 hc0 hc1 x0 x1 xs0 xs1).2.1)

/-- Case C's pieces for output window 2's buffer tile it (one whole-row store last), so they cover it. -/
theorem cover0_C_2 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).1, y ∈ pc.1.set :=
  View.cover_of_tiledL (kernelRun0_C c i arg1 harg1 arg2 harg2 arg3 harg3 arg4 harg4 arg5 harg5 arg6 harg6 hc0 hc1 x0 x1 xs0 xs1).1 S1x64.size (by sl_kernel_rfl) y

/-- What case C leaves in output window 2's buffer: its pieces read back. -/
def out0_C_2 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VO0_2.read (Elt F) (VO0_2.writes (Elt F) VO0_2.junk (kernelRun0_C c i arg1 harg1 arg2 harg2 arg3 harg3 arg4 harg4 arg5 harg5 arg6 harg6 hc0 hc1 x0 x1 xs0 xs1).1)

/-- Case C's pieces for output window 3's buffer tile it (one whole-row store last), so they cover it. -/
theorem cover0_C_3 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).2.1, y ∈ pc.1.set :=
  View.cover_of_tiledL (kernelRun0_C c i arg1 harg1 arg2 harg2 arg3 harg3 arg4 harg4 arg5 harg5 arg6 harg6 hc0 hc1 x0 x1 xs0 xs1).2.1 S1x64.size (by sl_kernel_rfl) y

/-- What case C leaves in output window 3's buffer: its pieces read back. -/
def out0_C_3 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VO0_3.read (Elt F) (VO0_3.writes (Elt F) VO0_3.junk (kernelRun0_C c i arg1 harg1 arg2 harg2 arg3 harg3 arg4 harg4 arg5 harg5 arg6 harg6 hc0 hc1 x0 x1 xs0 xs1).2.1)

/-- Case C's pieces for the first scratch row tile it (one whole-row store last), so they cover it. -/
theorem scover0_C_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).2.2.1, y ∈ pc.1.set :=
  View.cover_of_tiledL (kernelRun0_C c i arg1 harg1 arg2 harg2 arg3 harg3 arg4 harg4 arg5 harg5 arg6 harg6 hc0 hc1 x0 x1 xs0 xs1).2.2.1 S1x64.size (by sl_kernel_rfl) y

/-- What case C leaves in the first scratch row: its pieces read back. -/
def sout0_C_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 hc0 hc1 x0 x1 xs0 xs1).2.2.1)

/-- Case C's pieces for the second scratch row tile it (one whole-row store last), so they cover it. -/
theorem scover0_C_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).2.2.2.1, y ∈ pc.1.set :=
  View.cover_of_tiledL (kernelRun0_C c i arg1 harg1 arg2 harg2 arg3 harg3 arg4 harg4 arg5 harg5 arg6 harg6 hc0 hc1 x0 x1 xs0 xs1).2.2.2.1 S1x64.size (by sl_kernel_rfl) y

/-- What case C leaves in the second scratch row: its pieces read back. -/
def sout0_C_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 hc0 hc1 x0 x1 xs0 xs1).2.2.2.1)

/-! ## What the outputs and the scratch rows hold after each point -/

/-- Placeholders for the two output windows' buffers at the points where they are idle (the buffers are neither
    written back there nor read at the next point, so nothing consults these). -/
def junk0_2 : Vec F S1x64 .f32 := VO0_2.read (Elt F) VO0_2.junk
def junk0_3 : Vec F S1x64 .f32 := VO0_3.read (Elt F) VO0_3.junk

/-- THE ACCUMULATION. What the two output windows' staging buffers and the two scratch rows hold after the body at
    position `n` (window 2's buffer, window 3's buffer, first scratch row, second scratch row): the case the closed
    forms select at `n`, run at the point's memrefs and input blocks, the scratch rows entering at what this leaves
    at `n - 1`. An assignment of the conditions no point meets is no case. -/
def outsAt0 (c : Dev nD) : (n : ℕ) → n < cfg0.N → Vec F S1x64 .f32 × Vec F S1x64 .f32 × Vec F S1x64 .f32 × Vec F S1x64 .f32
  | 0, hn => (junk0_2, junk0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      False.elim (by have hN : n + 1 < 32 := lt_of_lt_of_eq hn (show cfg0.N = 32 from N_0); omega)
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (junk0_2, junk0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- `outsAt0` at the point of case A: that case's contents. -/
theorem outsAt0_A (c : Dev nD) (t : Fin cfg0.N) (h0 : t.val % 32 = 0) (h1 : ¬t.val % 32 = 31) :
    outsAt0 V c t.val t.isLt = (junk0_2, junk0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (by exfalso; have hN : n + 1 < 32 := lt_of_lt_of_eq hn (show cfg0.N = 32 from N_0); (try dsimp only at h0); omega)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (junk0_2, junk0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the point of case C: that case's contents, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scoped buffer at
    anything); afterwards the two scratch rows at what the point before left in them, the other scoped buffers at
    anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restR0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch rows at that point's contents. -/
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restR0 c) ∗ (∃ r, prngReg c r)) := rfl

/-- Before a point that is not the first: the scratch rows at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restR0 c) ∗ (∃ r, prngReg c r)) := by
  cases n with
  | zero => exact absurd rfl hz
  | succ n => rfl

/-! ## The pipeline's proof data -/

/-- The proof data of pipeline 0 on core `c`: the arrays as the region finds them; after the body at point `t`
    each input's buffer at its block and the two outputs' at `outsAt0`'s first two components; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At every point the body leaves each input window's buffer at its block (the windows are never idle); -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
/-- and, where the second conditional is taken, each output window's at `outsAt0`'s component. -/
theorem leaves0_2 (c : Dev nD) (t : Fin cfg0.N) (hc1 : cond0_1 (grid0.coords t)) :
    (dat0 V c).leavesExact 2 t = owns (c : Thread nD τ) (ms0_2 t) fullShare ((outsAt0 V c t.val t.isLt).1) := by
  rw [show (dat0 V c).leavesExact 2 t = owns (c : Thread nD τ) (ms0_2 t) fullShare ((dat0 V c).after 2 t) from by
    unfold Dat.leavesExact; rw [liveAt0_2 t hc1], after0_2]
theorem leaves0_3 (c : Dev nD) (t : Fin cfg0.N) (hc1 : cond0_1 (grid0.coords t)) :
    (dat0 V c).leavesExact 3 t = owns (c : Thread nD τ) (ms0_3 t) fullShare ((outsAt0 V c t.val t.isLt).2.1) := by
  rw [show (dat0 V c).leavesExact 3 t = owns (c : Thread nD τ) (ms0_3 t) fullShare ((dat0 V c).after 3 t) from by
    unfold Dat.leavesExact; rw [liveAt0_3 t hc1], after0_3]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    so that case's run applies. The invariant hands the body the scratch rows at what the point before left (at
    anything at the first point) and takes them back at this point's contents, the pieces covering each row; an
    output window idle at the point is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 32 = 0
  · by_cases h1 : t.val % 32 = 31
    · exfalso; omega
    · have hz : t.val = 0 := by omega
      have hc0 : cond0_0 (grid0.coords t) := (hcond0_0 t).mpr h0
      have hc1 : ¬cond0_1 (grid0.coords t) := fun h => h1 ((hcond0_1 t).mp h)
      rw [leaves0_0 V c t, leaves0_1 V c t]
      rw [Dat.leavesExact_idle (dat0 V c) 2 t (idleAt0_2 t hc1) (noFlush0_2 t hc1)]
      rw [Dat.leavesExact_idle (dat0 V c) 3 t (idleAt0_3 t hc1) (noFlush0_3 t hc1)]
      rw [outsAt0_A V c t h0 h1]
      unfold sout0_A_0 sout0_A_1; (try dsimp only)
      rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3
  · by_cases h1 : t.val % 32 = 31
    · have hz : t.val ≠ 0 := by omega
      have hc0 : ¬cond0_0 (grid0.coords t) := fun h => h0 ((hcond0_0 t).mp h)
      have hc1 : cond0_1 (grid0.coords t) := (hcond0_1 t).mpr h1
      rw [leaves0_0 V c t, leaves0_1 V c t]
      rw [leaves0_2 V c t hc1, leaves0_3 V c t hc1]
      rw [outsAt0_C V c t h0 h1]
      unfold out0_C_2 out0_C_3 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · have hz : t.val ≠ 0 := by omega
      have hc0 : ¬cond0_0 (grid0.coords t) := fun h => h0 ((hcond0_0 t).mp h)
      have hc1 : ¬cond0_1 (grid0.coords t) := fun h => h1 ((hcond0_1 t).mp h)
      rw [leaves0_0 V c t, leaves0_1 V c t]
      rw [Dat.leavesExact_idle (dat0 V c) 2 t (idleAt0_2 t hc1) (noFlush0_2 t hc1)]
      rw [Dat.leavesExact_idle (dat0 V c) 3 t (idleAt0_3 t hc1) (noFlush0_3 t hc1)]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the scratch rows' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitr [Hg]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.KRegion1.lean ====
/- REGION 1 of @main: the second TensorCore call (pipeline 1: the normalise-and-pool kernel), at a PARAMETER V, the
   TensorCore's buffer contents when the region is entered, and generic in the float interpretation F.
   The body reads its four input blocks whole, computes one value from them, and stores it over the whole output
   block: so after the body each input's buffer still holds its block and the output's buffer holds that one value
   (out1_4). The windows' blocks (iblk1), the body's triple (sound_kernel1), the proof data (dat1) and the body
   obligation (body_obligation1) follow. -/
import proofs.«173164_j41257455845539_2_alg».proof.Proof.Gen.Kernel.Launch
import proofs.«173164_j41257455845539_2_alg».proof.Proof.Gen.Kernel.Skeleton
import proofs.«173164_j41257455845539_2_alg».proof.Proof.Gen.Kernel.Points
import Idealize.ShloMosaic.Lib.Pipeline.FrameBody
import Idealize.ShloMosaic.Lib.Ring
import Idealize.ShloMosaic.Lib.Tactic

-- membership in a rectangle of the block's extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the window is fetched there
    (window 0: at every point) or not (windows 1, 2, 3: at the first point only, the block index never moving), for
    ANY proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S16384x9 := Rect.unit (s := S16384x9) ![0, 0] S16384x9.size inb_S16384x9_S16384x9_0_0
abbrev r1_1 : Rect S9x64 := Rect.unit (s := S9x64) ![0, 0] S9x64.size inb_S9x64_S9x64_0_0
abbrev r1_2 : Rect S32x2 := Rect.unit (s := S32x2) ![0, 0] S32x2.size inb_S32x2_S32x2_0_0
abbrev r1_4 : Rect S256x64x32 := Rect.unit (s := S256x64x32) ![0, 0, 0] S256x64x32.size inb_S256x64x32_S256x64x32_0_0_0

/-! ## What the body leaves in the output window's buffer -/

/-- Window 4's staging buffer after the body, from the input windows' blocks: its one store, of the one value the
    body computes, over the whole block. -/
def out1_4 (x0 : Vec F S16384x9 .f32) (x1 : Vec F S9x64 .f32) (x2 : Vec F S32x2 .f32) (x3 : Vec F S32x2 .f32) : Vec F S256x64x32 .f32 :=
  View.canon [⟨r1_4, k1_pay1 (View.ld x0 r1_0) (View.ld x1 r1_1) (View.ld x2 r1_2) (View.ld x3 r1_2)⟩]

/-- The one store is of the whole block, so it covers it. -/
theorem cover1_4 (p0 : Vec F S256x64x32 .f32) (y : S256x64x32.Idx) :
    ∃ pc ∈ ([⟨r1_4, p0⟩] : List (View.Piece (Elt F) S256x64x32 .f32)), y ∈ pc.1.set :=
  View.cover_of_tiled [⟨r1_4, p0⟩] S256x64x32.size (by rfl) y

/-! ## The body's triple -/

set_option maxHeartbeats 1000000 in
/-- The kernel body on whole staging memrefs, the inputs' at read contents x0 .. x3 and the output's at anything, runs
    to the continuation holding the inputs' as they were and the output's at out1_4 of the inputs'. -/
theorem sound_kernel1 (c : Dev nD) (E : Set ℕ) (i : grid1.Coords) (arg1 : Memref sig .tc .vmem S16384x9 .f32) (harg1 : arg1.IsWhole) (arg2 : Memref sig .tc .vmem S9x64 .f32) (harg2 : arg2.IsWhole) (arg3 : Memref sig .tc .vmem S32x2 .f32) (harg3 : arg3.IsWhole) (arg4 : Memref sig .tc .vmem S32x2 .f32) (harg4 : arg4.IsWhole) (arg5 : Memref sig .tc .vmem S256x64x32 .f32) (harg5 : arg5.IsWhole)
    (x0 : Vec F S16384x9 .f32) (x1 : Vec F S9x64 .f32) (x2 : Vec F S32x2 .f32) (x3 : Vec F S32x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__main_kernel i arg1 harg1 arg2 harg2 arg3 harg3 arg4 harg4 arg5 harg5) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them (V); after the body at point t each
    input's buffer at its block and the output's at out1_4 of the input blocks; the invariant: the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (before1_0 .. before1_3), so sound_kernel1 applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrame.lean ====
import proofs.«173164_j41257455845539_2_alg».proof.Proof.KRegion0
import proofs.«173164_j41257455845539_2_alg».proof.Proof.KRegion1
import proofs.«173164_j41257455845539_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: two host stretches and two kernel regions, from the launch to the return

The buffer contents at each boundary are a fold from the launch memory: a host stretch applies its operations, a region
replaces its arrays by what its write-backs leave and keeps every other buffer. -/

variable (m : (ℓ : Loc nD τ sig) → Buf (Elt F) ℓ) (ρ : Dev nD → PrngReg)

/-- The TensorCore's buffers at launch. -/
abbrev W0 : Dev nD → Valuation τ sig (Elt F) := fun c b => m (c, b)
/-- After the first host stretch (the pillars re-laid as rows, the weights transposed): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its two output arrays hold the accumulated sums, every other buffer is as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (mean, variance, the scale and shift per position): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: the result array holds its blocks, every other buffer is as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- Argument 0 ends as launched: no host operation writes it and neither region has it among its arrays. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- Argument 1 ends as launched: no host operation writes it and neither region has it among its arrays. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 ends as launched: no host operation writes it and neither region has it among its arrays. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 ends as launched: no host operation writes it and neither region has it among its arrays. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- Argument 4 ends as launched: no host operation writes it and neither region has it among its arrays. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

/-- Both pipelines' proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 as a segment of the run: entered with every unscoped buffer at its contents before the call, left with
    the region's arrays at what the write-backs fold to and every other buffer as entered; the generator register
    passes through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (hin0 (V1 m) c)
  hout c := by
    exact (hout0 (V1 m) c).trans (show Pipeline.ΦA spec0 c ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at its contents before the call, left with
    the region's arrays at what the write-backs fold to and every other buffer as entered; the generator register
    passes through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- The run with the result named: the result array ends at what region 1's write-backs fold to, the arguments as launched. -/
theorem run_result : θ_run defs (onTc (τ := τ) (main (F := F))) ⟨m, fun _ => 0, ρ⟩ (fun r => ∀ c : Dev nD,
      r.2.mem ((c.tc : Thread nD τ).loc main_v20) = (dat1 (V3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v20 (by decide))).trans (W4_arr m c 4),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Hand

end
-- ==== Proof.KIRegion0Runs.lean ====
/- Region 0 (the statistics pass, pipeline 0): what the three control cases of its body share. The body
   accumulates, in two scratch rows carried from grid point to grid point, the per-position sum and sum of squares
   of the projected block; it clears the rows at the first point and copies them to the two output windows at the
   last. Here: each window's block at a point, the two branch conditions in closed form over the grid, where the
   output windows are idle, and the region invariant with the scratch rows named. -/
import proofs.«173164_j41257455845539_2_alg».proof.Proof.Gen.KernelIdeal.Launch
import proofs.«173164_j41257455845539_2_alg».proof.Proof.Gen.KernelIdeal.Skeleton
import proofs.«173164_j41257455845539_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place: unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the whole weight matrix, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (clear the scratch rows), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition of the body's second conditional (copy the scratch rows out), from the grid coordinates. -/
abbrev cond0_1 (i : grid0.Coords) : Prop := k0_cond2 i = 1#1
/-- It holds at the last point only — decided over the grid. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the second conditional is not taken the two output windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each output window, through which its contents are stated (the choice does not matter). -/
abbrev VO0_2 : View sig .tc .vmem S1x64 .f32 := (Memref.whole cc0_stg2_0 : Memref sig .tc .vmem S1x64 .f32).view
abbrev VO0_3 : View sig .tc .vmem S1x64 .f32 := (Memref.whole cc0_stg3_0 : Memref sig .tc .vmem S1x64 .f32).view
/-- Each window's current staging memref at point `t`, spelled as the pipeline passes it, and its wholeness. -/
abbrev ms0_0 (t : Fin cfg0.N) : Memref sig .tc .vmem S32768x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
/-- The two scratch rows: whole scoped buffers of the kernel's own, passed beside the windows. -/
abbrev scM0_0 : Memref sig .tc .vmem S1x64 .f32 := Memref.whole cc0_scratch0
abbrev scM0_1 : Memref sig .tc .vmem S1x64 .f32 := Memref.whole cc0_scratch1
/-- The scratch rows as views: what they hold is stated through these. -/
abbrev VS0_0 : View sig .tc .vmem S1x64 .f32 := scM0_0.view
abbrev VS0_1 : View sig .tc .vmem S1x64 .f32 := scM0_1.view

/-- The scoped buffers of the core that are neither a staging buffer of this pipeline nor one of its scratch rows
    (the other pipeline's staging buffers), each whole at some contents: carried through the region untouched. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the two scratch rows as memrefs owned at some contents: what the body obligation
    hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR0 c) ∗ (∃ r, prngReg c r)) := by
  unfold Pipeline.ΦA restR0; rw [scopedRest0_eq]; simp only [scM0_0, scM0_1, owns_whole]; try rfl

end Cert.KernelIdeal.Hand

end
-- ==== Proof.KIRegion0RunA.lean ====
/- Region 0, the body's run at the FIRST grid point (the scratch rows are cleared, then the block's sums added;
   nothing is copied out): the body's triple, with the pieces each scratch row ends with as its witness. -/
import proofs.«173164_j41257455845539_2_alg».proof.Proof.KIRegion0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- CASE A (first conditional taken, second not). On whole memrefs — the inputs' staging buffers at their contents,
    the two output windows' buffers (idle here) at contents handed back untouched, the two scratch rows at anything —
    the body runs to the continuation holding the inputs and outputs as they were and each scratch row with its
    pieces written. -/
noncomputable def kernelRun0_A (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) :
    Σ' (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KIRegion0RunB.lean ====
/- Region 0, the body's run at a MIDDLE grid point (the block's sums are added to the scratch rows as the point
   before left them; nothing is cleared, nothing copied out). -/
import proofs.«173164_j41257455845539_2_alg».proof.Proof.KIRegion0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- CASE B (neither conditional taken). On whole memrefs — the inputs' staging buffers at their contents, the two
    output windows' buffers (idle here) at contents handed back untouched, the two scratch rows at the contents the
    point before left — the body runs to the continuation holding the inputs and outputs as they were and each
    scratch row with its pieces written. -/
noncomputable def kernelRun0_B (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) :
    Σ' (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KIRegion0RunC.lean ====
/- Region 0, the body's run at the LAST grid point (the block's sums are added to the scratch rows as the point
   before left them, and the two rows are then copied to the two output windows' buffers). -/
import proofs.«173164_j41257455845539_2_alg».proof.Proof.KIRegion0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- CASE C (first conditional not taken, second taken). On whole memrefs — the inputs' staging buffers at their
    contents, the two output windows' buffers at anything, the two scratch rows at the contents the point before
    left — the body runs to the continuation holding the inputs as they were and each output buffer and each scratch
    row with its pieces written. -/
noncomputable def kernelRun0_C (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIRegion0.lean ====
/- Region 0 (the statistics pass, pipeline 0), the rest of its half of the frame: what the two output windows'
   buffers and the two scratch rows hold per case and point by point, the proof data, the body obligation, and the
   two entailments between the class invariant and the region invariant. Stated at the region-entry contents `V`,
   generic in the float instance. -/
import proofs.«173164_j41257455845539_2_alg».proof.Proof.KIRegion0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A's pieces for the first scratch row tile it (one whole-row store last), so they cover it. -/
theorem scover0_A_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) (y : S1x64.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S1x64.size (by sl_kernel_rfl) y

/-- What case A leaves in the first scratch row: its pieces read back. -/
def sout0_A_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) : Vec F S1x64 .f32 :=
  VS0_0.read (Elt F) (VS0_0.writes (Elt F) VS0_0.junk (kernelRun0_A c i arg1 harg1 arg2 harg2 arg3 harg3 arg4 harg4 arg5 harg5 arg6 harg6 hc0 hc1 x0 x1).1)

/-- Case A's pieces for the second scratch row tile it (one whole-row store last), so they cover it. -/
theorem scover0_A_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) (y : S1x64.Idx) :
    ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S1x64.size (by sl_kernel_rfl) y

/-- What case A leaves in the second scratch row: its pieces read back. -/
def sout0_A_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) : Vec F S1x64 .f32 :=
  VS0_1.read (Elt F) (VS0_1.writes (Elt F) VS0_1.junk (kernelRun0_A c i arg1 harg1 arg2 harg2 arg3 harg3 arg4 harg4 arg5 harg5 arg6 harg6 hc0 hc1 x0 x1).2.1)

/-- Case B's pieces for the first scratch row tile it (one whole-row store last), so they cover it. -/
theorem scover0_B_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 hc0 hc1 x0 x1 xs0 xs1).1, y ∈ pc.1.set :=
  View.cover_of_tiledL (kernelRun0_B c i arg1 harg1 arg2 harg2 arg3 harg3 arg4 harg4 arg5 harg5 arg6 harg6 hc0 hc1 x0 x1 xs0 xs1).1 S1x64.size (by sl_kernel_rfl) y

/-- What case B leaves in the first scratch row: its pieces read back. -/
def sout0_B_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 hc0 hc1 x0 x1 xs0 xs1).1)

/-- Case B's pieces for the second scratch row tile it (one whole-row store last), so they cover it. -/
theorem scover0_B_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 hc0 hc1 x0 x1 xs0 xs1).2.1, y ∈ pc.1.set :=
  View.cover_of_tiledL (kernelRun0_B c i arg1 harg1 arg2 harg2 arg3 harg3 arg4 harg4 arg5 harg5 arg6 harg6 hc0 hc1 x0 x1 xs0 xs1).2.1 S1x64.size (by sl_kernel_rfl) y

/-- What case B leaves in the second scratch row: its pieces read back. -/
def sout0_B_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 hc0 hc1 x0 x1 xs0 xs1).2.1)

/-- Case C's pieces for output window 2's buffer tile it (one whole-row store last), so they cover it. -/
theorem cover0_C_2 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).1, y ∈ pc.1.set :=
  View.cover_of_tiledL (kernelRun0_C c i arg1 harg1 arg2 harg2 arg3 harg3 arg4 harg4 arg5 harg5 arg6 harg6 hc0 hc1 x0 x1 xs0 xs1).1 S1x64.size (by sl_kernel_rfl) y

/-- What case C leaves in output window 2's buffer: its pieces read back. -/
def out0_C_2 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VO0_2.read (Elt F) (VO0_2.writes (Elt F) VO0_2.junk (kernelRun0_C c i arg1 harg1 arg2 harg2 arg3 harg3 arg4 harg4 arg5 harg5 arg6 harg6 hc0 hc1 x0 x1 xs0 xs1).1)

/-- Case C's pieces for output window 3's buffer tile it (one whole-row store last), so they cover it. -/
theorem cover0_C_3 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).2.1, y ∈ pc.1.set :=
  View.cover_of_tiledL (kernelRun0_C c i arg1 harg1 arg2 harg2 arg3 harg3 arg4 harg4 arg5 harg5 arg6 harg6 hc0 hc1 x0 x1 xs0 xs1).2.1 S1x64.size (by sl_kernel_rfl) y

/-- What case C leaves in output window 3's buffer: its pieces read back. -/
def out0_C_3 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VO0_3.read (Elt F) (VO0_3.writes (Elt F) VO0_3.junk (kernelRun0_C c i arg1 harg1 arg2 harg2 arg3 harg3 arg4 harg4 arg5 harg5 arg6 harg6 hc0 hc1 x0 x1 xs0 xs1).2.1)

/-- Case C's pieces for the first scratch row tile it (one whole-row store last), so they cover it. -/
theorem scover0_C_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).2.2.1, y ∈ pc.1.set :=
  View.cover_of_tiledL (kernelRun0_C c i arg1 harg1 arg2 harg2 arg3 harg3 arg4 harg4 arg5 harg5 arg6 harg6 hc0 hc1 x0 x1 xs0 xs1).2.2.1 S1x64.size (by sl_kernel_rfl) y

/-- What case C leaves in the first scratch row: its pieces read back. -/
def sout0_C_0 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 hc0 hc1 x0 x1 xs0 xs1).2.2.1)

/-- Case C's pieces for the second scratch row tile it (one whole-row store last), so they cover it. -/
theorem scover0_C_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 hc0 hc1 x0 x1 xs0 xs1).2.2.2.1, y ∈ pc.1.set :=
  View.cover_of_tiledL (kernelRun0_C c i arg1 harg1 arg2 harg2 arg3 harg3 arg4 harg4 arg5 harg5 arg6 harg6 hc0 hc1 x0 x1 xs0 xs1).2.2.2.1 S1x64.size (by sl_kernel_rfl) y

/-- What case C leaves in the second scratch row: its pieces read back. -/
def sout0_C_1 (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 hc0 hc1 x0 x1 xs0 xs1).2.2.2.1)

/-! ## What the outputs and the scratch rows hold after each point -/

/-- Placeholders for the two output windows' buffers at the points where they are idle (the buffers are neither
    written back there nor read at the next point, so nothing consults these). -/
def junk0_2 : Vec F S1x64 .f32 := VO0_2.read (Elt F) VO0_2.junk
def junk0_3 : Vec F S1x64 .f32 := VO0_3.read (Elt F) VO0_3.junk

/-- THE ACCUMULATION. What the two output windows' staging buffers and the two scratch rows hold after the body at
    position `n` (window 2's buffer, window 3's buffer, first scratch row, second scratch row): the case the closed
    forms select at `n`, run at the point's memrefs and input blocks, the scratch rows entering at what this leaves
    at `n - 1`. An assignment of the conditions no point meets is no case. -/
def outsAt0 (c : Dev nD) : (n : ℕ) → n < cfg0.N → Vec F S1x64 .f32 × Vec F S1x64 .f32 × Vec F S1x64 .f32 × Vec F S1x64 .f32
  | 0, hn => (junk0_2, junk0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      False.elim (by have hN : n + 1 < 32 := lt_of_lt_of_eq hn (show cfg0.N = 32 from N_0); omega)
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (junk0_2, junk0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- `outsAt0` at the point of case A: that case's contents. -/
theorem outsAt0_A (c : Dev nD) (t : Fin cfg0.N) (h0 : t.val % 32 = 0) (h1 : ¬t.val % 32 = 31) :
    outsAt0 V c t.val t.isLt = (junk0_2, junk0_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (by exfalso; have hN : n + 1 < 32 := lt_of_lt_of_eq hn (show cfg0.N = 32 from N_0); (try dsimp only at h0); omega)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (junk0_2, junk0_3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at the point of case C: that case's contents, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scoped buffer at
    anything); afterwards the two scratch rows at what the point before left in them, the other scoped buffers at
    anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restR0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch rows at that point's contents. -/
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restR0 c) ∗ (∃ r, prngReg c r)) := rfl

/-- Before a point that is not the first: the scratch rows at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restR0 c) ∗ (∃ r, prngReg c r)) := by
  cases n with
  | zero => exact absurd rfl hz
  | succ n => rfl

/-! ## The pipeline's proof data -/

/-- The proof data of pipeline 0 on core `c`: the arrays as the region finds them; after the body at point `t`
    each input's buffer at its block and the two outputs' at `outsAt0`'s first two components; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At every point the body leaves each input window's buffer at its block (the windows are never idle); -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
/-- and, where the second conditional is taken, each output window's at `outsAt0`'s component. -/
theorem leaves0_2 (c : Dev nD) (t : Fin cfg0.N) (hc1 : cond0_1 (grid0.coords t)) :
    (dat0 V c).leavesExact 2 t = owns (c : Thread nD τ) (ms0_2 t) fullShare ((outsAt0 V c t.val t.isLt).1) := by
  rw [show (dat0 V c).leavesExact 2 t = owns (c : Thread nD τ) (ms0_2 t) fullShare ((dat0 V c).after 2 t) from by
    unfold Dat.leavesExact; rw [liveAt0_2 t hc1], after0_2]
theorem leaves0_3 (c : Dev nD) (t : Fin cfg0.N) (hc1 : cond0_1 (grid0.coords t)) :
    (dat0 V c).leavesExact 3 t = owns (c : Thread nD τ) (ms0_3 t) fullShare ((outsAt0 V c t.val t.isLt).2.1) := by
  rw [show (dat0 V c).leavesExact 3 t = owns (c : Thread nD τ) (ms0_3 t) fullShare ((dat0 V c).after 3 t) from by
    unfold Dat.leavesExact; rw [liveAt0_3 t hc1], after0_3]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    so that case's run applies. The invariant hands the body the scratch rows at what the point before left (at
    anything at the first point) and takes them back at this point's contents, the pieces covering each row; an
    output window idle at the point is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 32 = 0
  · by_cases h1 : t.val % 32 = 31
    · exfalso; omega
    · have hz : t.val = 0 := by omega
      have hc0 : cond0_0 (grid0.coords t) := (hcond0_0 t).mpr h0
      have hc1 : ¬cond0_1 (grid0.coords t) := fun h => h1 ((hcond0_1 t).mp h)
      rw [leaves0_0 V c t, leaves0_1 V c t]
      rw [Dat.leavesExact_idle (dat0 V c) 2 t (idleAt0_2 t hc1) (noFlush0_2 t hc1)]
      rw [Dat.leavesExact_idle (dat0 V c) 3 t (idleAt0_3 t hc1) (noFlush0_3 t hc1)]
      rw [outsAt0_A V c t h0 h1]
      unfold sout0_A_0 sout0_A_1; (try dsimp only)
      rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3
  · by_cases h1 : t.val % 32 = 31
    · have hz : t.val ≠ 0 := by omega
      have hc0 : ¬cond0_0 (grid0.coords t) := fun h => h0 ((hcond0_0 t).mp h)
      have hc1 : cond0_1 (grid0.coords t) := (hcond0_1 t).mpr h1
      rw [leaves0_0 V c t, leaves0_1 V c t]
      rw [leaves0_2 V c t hc1, leaves0_3 V c t hc1]
      rw [outsAt0_C V c t h0 h1]
      unfold out0_C_2 out0_C_3 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · have hz : t.val ≠ 0 := by omega
      have hc0 : ¬cond0_0 (grid0.coords t) := fun h => h0 ((hcond0_0 t).mp h)
      have hc1 : ¬cond0_1 (grid0.coords t) := fun h => h1 ((hcond0_1 t).mp h)
      rw [leaves0_0 V c t, leaves0_1 V c t]
      rw [Dat.leavesExact_idle (dat0 V c) 2 t (idleAt0_2 t hc1) (noFlush0_2 t hc1)]
      rw [Dat.leavesExact_idle (dat0 V c) 3 t (idleAt0_3 t hc1) (noFlush0_3 t hc1)]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the scratch rows' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitr [Hg]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KIRegion1.lean ====
/- REGION 1 of @main: the second TensorCore call (pipeline 1: the normalise-and-pool kernel), at a PARAMETER V, the
   TensorCore's buffer contents when the region is entered, and generic in the float interpretation F.
   The body reads its four input blocks whole, computes one value from them, and stores it over the whole output
   block: so after the body each input's buffer still holds its block and the output's buffer holds that one value
   (out1_4). The windows' blocks (iblk1), the body's triple (sound_kernel1), the proof data (dat1) and the body
   obligation (body_obligation1) follow. -/
import proofs.«173164_j41257455845539_2_alg».proof.Proof.Gen.KernelIdeal.Launch
import proofs.«173164_j41257455845539_2_alg».proof.Proof.Gen.KernelIdeal.Skeleton
import proofs.«173164_j41257455845539_2_alg».proof.Proof.Gen.KernelIdeal.Points
import Idealize.ShloMosaic.Lib.Pipeline.FrameBody
import Idealize.ShloMosaic.Lib.Ring
import Idealize.ShloMosaic.Lib.Tactic

-- membership in a rectangle of the block's extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the window is fetched there
    (window 0: at every point) or not (windows 1, 2, 3: at the first point only, the block index never moving), for
    ANY proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S16384x9 := Rect.unit (s := S16384x9) ![0, 0] S16384x9.size inb_S16384x9_S16384x9_0_0
abbrev r1_1 : Rect S9x64 := Rect.unit (s := S9x64) ![0, 0] S9x64.size inb_S9x64_S9x64_0_0
abbrev r1_2 : Rect S32x2 := Rect.unit (s := S32x2) ![0, 0] S32x2.size inb_S32x2_S32x2_0_0
abbrev r1_4 : Rect S256x64x32 := Rect.unit (s := S256x64x32) ![0, 0, 0] S256x64x32.size inb_S256x64x32_S256x64x32_0_0_0

/-! ## What the body leaves in the output window's buffer -/

/-- Window 4's staging buffer after the body, from the input windows' blocks: its one store, of the one value the
    body computes, over the whole block. -/
def out1_4 (x0 : Vec F S16384x9 .f32) (x1 : Vec F S9x64 .f32) (x2 : Vec F S32x2 .f32) (x3 : Vec F S32x2 .f32) : Vec F S256x64x32 .f32 :=
  View.canon [⟨r1_4, k1_pay1 (View.ld x0 r1_0) (View.ld x1 r1_1) (View.ld x2 r1_2) (View.ld x3 r1_2)⟩]

/-- The one store is of the whole block, so it covers it. -/
theorem cover1_4 (p0 : Vec F S256x64x32 .f32) (y : S256x64x32.Idx) :
    ∃ pc ∈ ([⟨r1_4, p0⟩] : List (View.Piece (Elt F) S256x64x32 .f32)), y ∈ pc.1.set :=
  View.cover_of_tiled [⟨r1_4, p0⟩] S256x64x32.size (by rfl) y

/-! ## The body's triple -/

set_option maxHeartbeats 1000000 in
/-- The kernel body on whole staging memrefs, the inputs' at read contents x0 .. x3 and the output's at anything, runs
    to the continuation holding the inputs' as they were and the output's at out1_4 of the inputs'. -/
theorem sound_kernel1 (c : Dev nD) (E : Set ℕ) (i : grid1.Coords) (arg1 : Memref sig .tc .vmem S16384x9 .f32) (harg1 : arg1.IsWhole) (arg2 : Memref sig .tc .vmem S9x64 .f32) (harg2 : arg2.IsWhole) (arg3 : Memref sig .tc .vmem S32x2 .f32) (harg3 : arg3.IsWhole) (arg4 : Memref sig .tc .vmem S32x2 .f32) (harg4 : arg4.IsWhole) (arg5 : Memref sig .tc .vmem S256x64x32 .f32) (harg5 : arg5.IsWhole)
    (x0 : Vec F S16384x9 .f32) (x1 : Vec F S9x64 .f32) (x2 : Vec F S32x2 .f32) (x3 : Vec F S32x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__main_kernel i arg1 harg1 arg2 harg2 arg3 harg3 arg4 harg4 arg5 harg5) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them (V); after the body at point t each
    input's buffer at its block and the output's at out1_4 of the input blocks; the invariant: the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (before1_0 .. before1_3), so sound_kernel1 applies;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIFrame.lean ====
import proofs.«173164_j41257455845539_2_alg».proof.Proof.KIRegion0
import proofs.«173164_j41257455845539_2_alg».proof.Proof.KIRegion1
import proofs.«173164_j41257455845539_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: two host stretches and two kernel regions, from the launch to the return

The buffer contents at each boundary are a fold from the launch memory: a host stretch applies its operations, a region
replaces its arrays by what its write-backs leave and keeps every other buffer. -/

variable (m : (ℓ : Loc nD τ sig) → Buf (Elt F) ℓ) (ρ : Dev nD → PrngReg)

/-- The TensorCore's buffers at launch. -/
abbrev W0 : Dev nD → Valuation τ sig (Elt F) := fun c b => m (c, b)
/-- After the first host stretch (the pillars re-laid as rows, the weights transposed): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its two output arrays hold the accumulated sums, every other buffer is as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (mean, variance, the scale and shift per position): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: the result array holds its blocks, every other buffer is as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- Argument 0 ends as launched: no host operation writes it and neither region has it among its arrays. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- Argument 1 ends as launched: no host operation writes it and neither region has it among its arrays. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 ends as launched: no host operation writes it and neither region has it among its arrays. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 ends as launched: no host operation writes it and neither region has it among its arrays. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- Argument 4 ends as launched: no host operation writes it and neither region has it among its arrays. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

/-- Both pipelines' proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 as a segment of the run: entered with every unscoped buffer at its contents before the call, left with
    the region's arrays at what the write-backs fold to and every other buffer as entered; the generator register
    passes through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (hin0 (V1 m) c)
  hout c := by
    exact (hout0 (V1 m) c).trans (show Pipeline.ΦA spec0 c ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at its contents before the call, left with
    the region's arrays at what the write-backs fold to and every other buffer as entered; the generator register
    passes through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- The run with the result named: the result array ends at what region 1's write-backs fold to, the arguments as launched. -/
theorem run_result : θ_run defs (onTc (τ := τ) (main (F := F))) ⟨m, fun _ => 0, ρ⟩ (fun r => ∀ c : Dev nD,
      r.2.mem ((c.tc : Thread nD τ).loc main_v20) = (dat1 (V3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v20 (by decide))).trans (W4_arr m c 4),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx
import Mathlib.Tactic

/-!
# The common specification of the two programs, and the algebra between its two forms

Inputs: P : [16384, 32, 2, 9], W : [64, 9], γ β : [64], all extended reals. Write
x(b,p,n,o) = ∑ c < 9, P[b,p,n,c] · W[o,c] and, for the position j = 2p + n,
S1(j) = ∑ b, ∑ o, x and S2(j) = ∑ b, ∑ o, x²; N = 2^20 is the number of summands.

* the FOLDED form (kernelG): μ = S1/N, v = S2/N − μ·μ, r = 1/√(v + ε), a = γ_j · r,
  c = β_j − (μ·γ_j)·r, and the output at (b,o,p) is the larger over n < 2 of max (x·a + c) 0;
* the CENTRED form (refG): μ = S1/N, v = (∑ (x − μ)²)/N, and the output is the larger over n < 2 of
  max (((x − μ) · 1/√(v + ε)) · γ_j + β_j) 0.

For inputs that are all real numbers the two agree (kernelG_eq_refG): the variance identity
(∑ (x − μ)²)/N = (∑ x²)/N − μ² for μ = (∑ x)/N, the variance is nonnegative so v + ε > 0 and the inverse
square root is a real number, and ((x − μ)·r)·γ + β = x·(γ·r) + (β − (μ·γ)·r) in a commutative ring.
-/

noncomputable section

namespace Cert.Spec

open Idealize.ShloMosaic Idealize.ShloMosaic.ValueIdx
open scoped BigOperators

abbrev SP : Shape := ⟨4, ![16384, 32, 2, 9]⟩
abbrev SW : Shape := ⟨2, ![64, 9]⟩
abbrev SV : Shape := ⟨1, ![64]⟩
abbrev SO : Shape := ⟨3, ![16384, 64, 32]⟩

/-- The position 2p + n among the 64 positions (p, n). -/
def pos (p : Fin 32) (n : Fin 2) : Fin 64 := ⟨2 * p.val + n.val, by omega⟩

/-- The linear layer: x(b,p,n,o) = ∑ c, P[b,p,n,c] · W[o,c]. -/
def lin (P : Vec Ideal SP .f32) (W : Vec Ideal SW .f32) (b : Fin 16384) (p : Fin 32) (n : Fin 2) (o : Fin 64) : EReal :=
  ∑ c : Fin 9, P (ix4 b p n c) * W (ix2 o c)

/-- The sum of x over the rows (b, o) at the position (p, n). -/
def S1 (P : Vec Ideal SP .f32) (W : Vec Ideal SW .f32) (p : Fin 32) (n : Fin 2) : EReal :=
  ∑ b : Fin 16384, ∑ o : Fin 64, lin P W b p n o

/-- The sum of x² over the rows (b, o) at the position (p, n). -/
def S2 (P : Vec Ideal SP .f32) (W : Vec Ideal SW .f32) (p : Fin 32) (n : Fin 2) : EReal :=
  ∑ b : Fin 16384, ∑ o : Fin 64, lin P W b p n o * lin P W b p n o

/-- The number of rows, 2^20, as the f32 word the programs spell. -/
def cN : EReal := Ideal.ofBits .f32 0x49800000#32
/-- The variance offset ε, as the f32 word the programs spell. -/
def cEps : EReal := Ideal.ofBits .f32 0x3727C5AC#32

/-! ## The folded form -/

def kMean (P : Vec Ideal SP .f32) (W : Vec Ideal SW .f32) (p : Fin 32) (n : Fin 2) : EReal :=
  Ideal.div (S1 P W p n) cN
def kVar (P : Vec Ideal SP .f32) (W : Vec Ideal SW .f32) (p : Fin 32) (n : Fin 2) : EReal :=
  Ideal.div (S2 P W p n) cN - kMean P W p n * kMean P W p n
def kInv (P : Vec Ideal SP .f32) (W : Vec Ideal SW .f32) (p : Fin 32) (n : Fin 2) : EReal :=
  Ideal.rsqrt (kVar P W p n + cEps)
def kA (P : Vec Ideal SP .f32) (W : Vec Ideal SW .f32) (γ : Vec Ideal SV .f32) (p : Fin 32) (n : Fin 2) : EReal :=
  γ (ix1 (pos p n)) * kInv P W p n
def kB (P : Vec Ideal SP .f32) (W : Vec Ideal SW .f32) (γ β : Vec Ideal SV .f32) (p : Fin 32) (n : Fin 2) : EReal :=
  β (ix1 (pos p n)) - (kMean P W p n * γ (ix1 (pos p n))) * kInv P W p n
def kElt (P : Vec Ideal SP .f32) (W : Vec Ideal SW .f32) (γ β : Vec Ideal SV .f32)
    (b : Fin 16384) (p : Fin 32) (n : Fin 2) (o : Fin 64) : EReal :=
  max (lin P W b p n o * kA P W γ p n + kB P W γ β p n) 0
def kOut (P : Vec Ideal SP .f32) (W : Vec Ideal SW .f32) (γ β : Vec Ideal SV .f32)
    (b : Fin 16384) (o : Fin 64) (p : Fin 32) : EReal :=
  max (kElt P W γ β b p 0 o) (kElt P W γ β b p 1 o)
def kernelG (P : Vec Ideal SP .f32) (W : Vec Ideal SW .f32) (γ β : Vec Ideal SV .f32) : Vec Ideal SO .f32 :=
  fun i => kOut P W γ β (i 0) (i 1) (i 2)

theorem kernelG_apply (P : Vec Ideal SP .f32) (W : Vec Ideal SW .f32) (γ β : Vec Ideal SV .f32)
    (b : Fin 16384) (o : Fin 64) (p : Fin 32) : kernelG P W γ β (ix3 b o p) = kOut P W γ β b o p := rfl

/-! ## The centred form -/

def rMean (P : Vec Ideal SP .f32) (W : Vec Ideal SW .f32) (p : Fin 32) (n : Fin 2) : EReal :=
  Ideal.div (S1 P W p n) cN
def rVar (P : Vec Ideal SP .f32) (W : Vec Ideal SW .f32) (p : Fin 32) (n : Fin 2) : EReal :=
  Ideal.div (∑ b : Fin 16384, ∑ o : Fin 64,
    (lin P W b p n o - rMean P W p n) * (lin P W b p n o - rMean P W p n)) cN
def rInv (P : Vec Ideal SP .f32) (W : Vec Ideal SW .f32) (p : Fin 32) (n : Fin 2) : EReal :=
  Ideal.rsqrt (rVar P W p n + cEps)
def rElt (P : Vec Ideal SP .f32) (W : Vec Ideal SW .f32) (γ β : Vec Ideal SV .f32)
    (b : Fin 16384) (p : Fin 32) (n : Fin 2) (o : Fin 64) : EReal :=
  max (((lin P W b p n o - rMean P W p n) * rInv P W p n) * γ (ix1 (pos p n)) + β (ix1 (pos p n))) 0
def rOut (P : Vec Ideal SP .f32) (W : Vec Ideal SW .f32) (γ β : Vec Ideal SV .f32)
    (b : Fin 16384) (o : Fin 64) (p : Fin 32) : EReal :=
  max (rElt P W γ β b p 0 o) (rElt P W γ β b p 1 o)
def refG (P : Vec Ideal SP .f32) (W : Vec Ideal SW .f32) (γ β : Vec Ideal SV .f32) : Vec Ideal SO .f32 :=
  fun i => rOut P W γ β (i 0) (i 1) (i 2)

theorem refG_apply (P : Vec Ideal SP .f32) (W : Vec Ideal SW .f32) (γ β : Vec Ideal SV .f32)
    (b : Fin 16384) (o : Fin 64) (p : Fin 32) : refG P W γ β (ix3 b o p) = rOut P W γ β b o p := rfl

/-! ## The maximum over the two points as a fold -/

/-- The fold of max from ⊥ over the two coordinates is the larger of the two values. -/
theorem fold_max_two (g : Fin 2 → EReal) : (Finset.univ : Finset (Fin 2)).fold max ⊥ g = max (g 0) (g 1) := by
  rw [show (Finset.univ : Finset (Fin 2)) = {0, 1} from rfl, Finset.fold_insert (by decide), Finset.fold_singleton,
    max_eq_left (bot_le : (⊥ : EReal) ≤ g 1)]

/-- The same from any initial value that is ⊥. -/
theorem fold_max_two_of_bot (g : Fin 2 → EReal) (c : EReal) (hc : c = ⊥) :
    (Finset.univ : Finset (Fin 2)).fold max c g = max (g 0) (g 1) := by
  subst hc; exact fold_max_two g

/-- The same with the maximum spelt as the float operation of the ideal values. -/
theorem fold_maximumf_two (g : Fin 2 → EReal) (c : EReal) (hc : c = ⊥) :
    (Finset.univ : Finset (Fin 2)).fold (FloatOps.maximumf (F := Ideal) (φ := .f32)) c g = max (g 0) (g 1) := by
  subst hc
  rw [show (Finset.univ : Finset (Fin 2)) = {0, 1} from rfl, Finset.fold_insert (by decide), Finset.fold_singleton]
  show max (g 0) (max (g 1) ⊥) = _
  rw [max_eq_left (bot_le : (⊥ : EReal) ≤ g 1)]

/-- The f32 word of -∞ denotes ⊥. -/
theorem ofBits_neg_inf : Ideal.ofBits .f32 0xFF800000#32 = ⊥ := by
  simp [Ideal.ofBits, Ideal.ieee]

/-! ## The real-number facts -/

section Real

variable {ι : Type*} [Fintype ι]

/-- The variance identity: with μ the mean of x over N = card ι values, the mean of (x − μ)² is the mean of x² less μ². -/
theorem var_identity (x : ι → ℝ) (N : ℝ) (hN : (Fintype.card ι : ℝ) = N) (h0 : N ≠ 0) :
    (∑ i, (x i - (∑ i, x i) / N) * (x i - (∑ i, x i) / N)) / N
      = (∑ i, x i * x i) / N - (∑ i, x i) / N * ((∑ i, x i) / N) := by
  set S := ∑ i, x i with hS
  have h1 : ∀ i, (x i - S / N) * (x i - S / N) = x i * x i - 2 * (S / N) * x i + S / N * (S / N) := fun i => by ring
  have h2 : ∑ i, (x i - S / N) * (x i - S / N) = (∑ i, x i * x i) - 2 * (S / N) * S + N * (S / N * (S / N)) := by
    simp only [h1, Finset.sum_add_distrib, Finset.sum_sub_distrib, ← Finset.mul_sum, Finset.sum_const,
      Finset.card_univ, nsmul_eq_mul, hN, ← hS]
    ring
  rw [h2]
  field_simp
  ring

/-- The same over a double sum, N the product of the two cardinalities. -/
theorem var_identity₂ {α β : Type*} [Fintype α] [Fintype β] (x : α → β → ℝ) (N : ℝ)
    (hN : ((Fintype.card α * Fintype.card β : ℕ) : ℝ) = N) (h0 : N ≠ 0) :
    (∑ a, ∑ b, (x a b - (∑ a, ∑ b, x a b) / N) * (x a b - (∑ a, ∑ b, x a b) / N)) / N
      = (∑ a, ∑ b, x a b * x a b) / N - (∑ a, ∑ b, x a b) / N * ((∑ a, ∑ b, x a b) / N) := by
  have h := var_identity (fun q : α × β => x q.1 q.2) N (by rw [Fintype.card_prod]; exact hN) h0
  simp only [Fintype.sum_prod_type] at h
  exact h

/-- A mean of squares is nonnegative. -/
theorem mean_sq_nonneg {α β : Type*} [Fintype α] [Fintype β] (x : α → β → ℝ) (μ N : ℝ) (h0 : 0 < N) :
    0 ≤ (∑ a, ∑ b, (x a b - μ) * (x a b - μ)) / N :=
  div_nonneg (Finset.sum_nonneg fun _ _ => Finset.sum_nonneg fun _ _ => mul_self_nonneg _) h0.le

end Real

/-! ## Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row count is the real 2^20. -/
theorem cN_eq : cN = ((1048576 : ℝ) : EReal) := by
  unfold cN
  simp [Ideal.ofBits, Ideal.ieee, -EReal.coe_mul]; norm_num

/-- The offset is a positive real. -/
theorem cEps_pos : ∃ e : ℝ, 0 < e ∧ cEps = (e : EReal) := by
  unfold cEps
  refine ⟨(10995116 : ℝ) * (2 : ℝ) ^ (-40 : ℤ), by positivity, ?_⟩
  simp [Ideal.ofBits, Ideal.ieee, -EReal.coe_mul]

/-- Division of a real by the row count is real division. -/
theorem div_cN (x : ℝ) : Ideal.div (x : EReal) cN = ((x / 1048576 : ℝ) : EReal) := by
  rw [cN_eq, Ideal.div_coe (by norm_num), ← EReal.coe_mul]
  congr 1
  ring

/-- The inverse square root of a positive real is a real. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

theorem coe_sum₂ {α β : Type*} [Fintype α] [Fintype β] (f : α → β → ℝ) :
    ((∑ a, ∑ b, f a b : ℝ) : EReal) = ∑ a, ∑ b, (f a b : EReal) := by
  rw [coe_sum]; exact Finset.sum_congr rfl fun a _ => coe_sum _ _

/-- The algebra of one output element, all quantities real. -/
theorem elt_eq (x μ r g bt : ℝ) :
    max ((x : EReal) * ((g : EReal) * r) + ((bt : EReal) - ((μ : EReal) * g) * r)) 0
      = max ((((x : EReal) - μ) * r) * g + bt) 0 := by
  have h : x * (g * r) + (bt - (μ * g) * r) = ((x - μ) * r) * g + bt := by ring
  simp only [← EReal.coe_mul, ← EReal.coe_sub, ← EReal.coe_add, h]

/-! ## The two forms agree on real inputs -/

section Main

/-- The linear layer over the reals. -/
def linR (p : SP.Idx → ℝ) (w : SW.Idx → ℝ) (b : Fin 16384) (pp : Fin 32) (n : Fin 2) (o : Fin 64) : ℝ :=
  ∑ c : Fin 9, p (ix4 b pp n c) * w (ix2 o c)

/-- The mean over the reals. -/
def mR (p : SP.Idx → ℝ) (w : SW.Idx → ℝ) (pp : Fin 32) (n : Fin 2) : ℝ :=
  (∑ b : Fin 16384, ∑ o : Fin 64, linR p w b pp n o) / 1048576

/-- The centred variance over the reals. -/
def vR (p : SP.Idx → ℝ) (w : SW.Idx → ℝ) (pp : Fin 32) (n : Fin 2) : ℝ :=
  (∑ b : Fin 16384, ∑ o : Fin 64, (linR p w b pp n o - mR p w pp n) * (linR p w b pp n o - mR p w pp n)) / 1048576

variable (p : SP.Idx → ℝ) (w : SW.Idx → ℝ) (b : Fin 16384) (pp : Fin 32) (n : Fin 2) (o : Fin 64)

theorem lin_coe : lin (fun i => (p i : EReal)) (fun i => (w i : EReal)) b pp n o = (linR p w b pp n o : EReal) := by
  unfold lin linR
  rw [coe_sum]
  simp only [EReal.coe_mul]

theorem S1_coe : S1 (fun i => (p i : EReal)) (fun i => (w i : EReal)) pp n
    = ((∑ b : Fin 16384, ∑ o : Fin 64, linR p w b pp n o : ℝ) : EReal) := by
  unfold S1
  rw [coe_sum₂]
  simp only [lin_coe]

theorem S2_coe : S2 (fun i => (p i : EReal)) (fun i => (w i : EReal)) pp n
    = ((∑ b : Fin 16384, ∑ o : Fin 64, linR p w b pp n o * linR p w b pp n o : ℝ) : EReal) := by
  unfold S2
  rw [coe_sum₂]
  simp only [lin_coe, EReal.coe_mul]

theorem kMean_coe : kMean (fun i => (p i : EReal)) (fun i => (w i : EReal)) pp n = (mR p w pp n : EReal) := by
  unfold kMean mR
  rw [S1_coe, div_cN]

theorem rMean_coe : rMean (fun i => (p i : EReal)) (fun i => (w i : EReal)) pp n = (mR p w pp n : EReal) :=
  kMean_coe p w pp n

theorem rVar_coe : rVar (fun i => (p i : EReal)) (fun i => (w i : EReal)) pp n = (vR p w pp n : EReal) := by
  unfold rVar vR
  simp only [lin_coe, rMean_coe, ← EReal.coe_sub, ← EReal.coe_mul]
  rw [← coe_sum₂ (fun b o => (linR p w b pp n o - mR p w pp n) * (linR p w b pp n o - mR p w pp n)), div_cN]

/-- The folded variance is the centred one: the variance identity over the 2^20 rows. -/
theorem kVar_coe : kVar (fun i => (p i : EReal)) (fun i => (w i : EReal)) pp n = (vR p w pp n : EReal) := by
  unfold kVar
  rw [S2_coe, div_cN, kMean_coe, ← EReal.coe_mul, ← EReal.coe_sub]
  congr 1
  unfold vR mR
  exact (var_identity₂ (fun b o => linR p w b pp n o) 1048576
    (by simp only [Fintype.card_fin]; norm_num) (by norm_num)).symm

theorem vR_nonneg : 0 ≤ vR p w pp n := mean_sq_nonneg _ _ _ (by norm_num)

theorem kInv_coe (e : ℝ) (he : 0 < e) (hE : cEps = (e : EReal)) :
    kInv (fun i => (p i : EReal)) (fun i => (w i : EReal)) pp n = (((Real.sqrt (vR p w pp n + e))⁻¹ : ℝ) : EReal) := by
  unfold kInv
  rw [kVar_coe, hE, ← EReal.coe_add, rsqrt_pos (add_pos_of_nonneg_of_pos (vR_nonneg p w pp n) he)]

theorem rInv_coe (e : ℝ) (he : 0 < e) (hE : cEps = (e : EReal)) :
    rInv (fun i => (p i : EReal)) (fun i => (w i : EReal)) pp n = (((Real.sqrt (vR p w pp n + e))⁻¹ : ℝ) : EReal) := by
  unfold rInv
  rw [rVar_coe, hE, ← EReal.coe_add, rsqrt_pos (add_pos_of_nonneg_of_pos (vR_nonneg p w pp n) he)]

/-- One element of the folded form is the same element of the centred form. -/
theorem kElt_eq_rElt (g bt : SV.Idx → ℝ) :
    kElt (fun i => (p i : EReal)) (fun i => (w i : EReal)) (fun i => (g i : EReal)) (fun i => (bt i : EReal)) b pp n o
      = rElt (fun i => (p i : EReal)) (fun i => (w i : EReal)) (fun i => (g i : EReal)) (fun i => (bt i : EReal)) b pp n o := by
  obtain ⟨e, he, hE⟩ := cEps_pos
  unfold kElt rElt kA kB
  rw [lin_coe, kMean_coe, rMean_coe, kInv_coe p w pp n e he hE, rInv_coe p w pp n e he hE]
  exact elt_eq _ _ _ _ _

end Main

/-- On inputs that are all real numbers, the folded form and the centred form are the same function. -/
theorem kernelG_eq_refG (P : Vec Ideal SP .f32) (W : Vec Ideal SW .f32) (γ β : Vec Ideal SV .f32)
    (hP : ∀ i, ∃ r : ℝ, P i = (r : EReal)) (hW : ∀ i, ∃ r : ℝ, W i = (r : EReal))
    (hγ : ∀ i, ∃ r : ℝ, γ i = (r : EReal)) (hβ : ∀ i, ∃ r : ℝ, β i = (r : EReal)) :
    kernelG P W γ β = refG P W γ β := by
  obtain ⟨p, rfl⟩ : ∃ p : SP.Idx → ℝ, P = fun i => (p i : EReal) :=
    ⟨fun i => (hP i).choose, funext fun i => (hP i).choose_spec⟩
  obtain ⟨w, rfl⟩ : ∃ w : SW.Idx → ℝ, W = fun i => (w i : EReal) :=
    ⟨fun i => (hW i).choose, funext fun i => (hW i).choose_spec⟩
  obtain ⟨g, rfl⟩ : ∃ g : SV.Idx → ℝ, γ = fun i => (g i : EReal) :=
    ⟨fun i => (hγ i).choose, funext fun i => (hγ i).choose_spec⟩
  obtain ⟨bt, rfl⟩ : ∃ bt : SV.Idx → ℝ, β = fun i => (bt i : EReal) :=
    ⟨fun i => (hβ i).choose, funext fun i => (hβ i).choose_spec⟩
  funext i
  show kOut _ _ _ _ (i 0) (i 1) (i 2) = rOut _ _ _ _ (i 0) (i 1) (i 2)
  exact congrArg₂ max (kElt_eq_rElt p w _ _ _ _ g bt) (kElt_eq_rElt p w _ _ _ _ g bt)

end Cert.Spec

end
-- ==== Proof.KIHostValue.lean ====
import proofs.«173164_j41257455845539_2_alg».proof.Proof.Gen.KernelIdeal.Launch
import proofs.«173164_j41257455845539_2_alg».proof.Proof.Spec
import Idealize.ShloMosaic.Lib.StableHlo.Run
import Idealize.ShloMosaic.Lib.IdealHost
import Idealize.ShloMosaic.Lib.ValueIdx
import Idealize.ShloMosaic.Lib.Pipeline.Value
import Idealize.ShloMosaic.Lib.ValueLayout

/-!
What the two stretches of host operations compute, read at an index over the extended reals.

The first stretch re-lays the pillars [16384, 32, 2, 9] as rows [1048576, 9] (row ((b·32 + p)·2 + n) is the point
(b, p, n)) and transposes the weights. The second takes the two accumulated row vectors s₁, s₂ : [1, 64] and forms,
per position j = 2p + n, the mean s₁/N, the variance s₂/N − mean², its inverse root r, the scale γ·r and the shift
β − (mean·γ)·r, each re-laid as [32, 2].
-/

noncomputable section

namespace Cert.KernelIdeal.HostValue

open Cert.KernelIdeal Cert.KernelIdeal.Gen
open Idealize.ShloMosaic Idealize.ShloMosaic.TcCoe Idealize.ShloMosaic.ValueIdx Idealize.SL.Sem

/-! ## The first stretch -/

/-- The rows array is the pillars re-laid. -/
theorem rows_eq (V : Valuation τ sig (Elt Ideal)) :
    (StableHlo.after (hostOps0 (F := Ideal)) V (Proc.devRef .tc main_v0) : S1048576x9.Idx → EReal)
      = shapeCast S1048576x9 (V (Proc.devRef .tc main_arg0)) shapeCasts_S16384x32x2x9_S1048576x9 := by
  after_results; rfl

/-- The transposed weights. -/
theorem wt_eq (V : Valuation τ sig (Elt Ideal)) :
    (StableHlo.after (hostOps0 (F := Ideal)) V (Proc.devRef .tc main_v1) : S9x64.Idx → EReal)
      = transpose S9x64 [1, 0] (V (Proc.devRef .tc main_arg2)) transposes_S64x9_S9x64_1_0 := by
  after_results

/-- Row ((b·32 + p)·2 + n) of the re-laid pillars is the point (b, p, n). -/
theorem rows_apply (P : S16384x32x2x9.Idx → EReal) (r : Fin 1048576) (b : Fin 16384) (p : Fin 32) (n : Fin 2) (k : Fin 9)
    (hr : r.val = (b.val * 32 + p.val) * 2 + n.val) :
    shapeCast S1048576x9 P shapeCasts_S16384x32x2x9_S1048576x9 (ix2 r k) = P (ix4 b p n k) :=
  shapeCast_apply P _ _ _ (by
    rw [Shape.rowMajor_val_four, Shape.rowMajor_val_two]
    show ((b.val * 32 + p.val) * 2 + n.val) * 9 + k.val = r.val * 9 + k.val
    rw [hr])

/-- The transposed weights at (k, o) are the weights at (o, k). -/
theorem wt_apply (W : S64x9.Idx → EReal) (k : Fin 9) (o : Fin 64) :
    transpose S9x64 [1, 0] W transposes_S64x9_S9x64_1_0 (ix2 k o) = W (ix2 o k) :=
  transpose_ix2_apply W _ k o

/-! ## The second stretch -/

/-- The mean per position, from the accumulated sums. -/
def meanOf (s1 : Vec Ideal S1x64 .f32) : FVec Ideal S64 .f32 :=
  Host.divf (F := Ideal) (shapeCast S64 s1 shapeCasts_S1x64_S64) (broadcastInDim S64 ![] bcast_S_S64 (constant (F := Ideal) S_ .f32 0x49800000#32))

/-- The inverse root of variance plus ε per position. -/
def invOf (s1 s2 : Vec Ideal S1x64 .f32) : FVec Ideal S64 .f32 :=
  Host.rsqrt (F := Ideal) (addf
    (subf (Host.divf (F := Ideal) (shapeCast S64 s2 shapeCasts_S1x64_S64) (broadcastInDim S64 ![] bcast_S_S64 (constant (F := Ideal) S_ .f32 0x49800000#32)))
      (mulf (meanOf s1) (meanOf s1)))
    (broadcastInDim S64 ![] bcast_S_S64 (constant (F := Ideal) S_ .f32 0x3727C5AC#32)))

/-- The scale array [32, 2]. -/
def scaleOf (s1 s2 : Vec Ideal S1x64 .f32) (g : Vec Ideal S64 .f32) : Vec Ideal S32x2 .f32 :=
  shapeCast S32x2 (mulf g (invOf s1 s2)) shapeCasts_S64_S32x2

/-- The shift array [32, 2]. -/
def shiftOf (s1 s2 : Vec Ideal S1x64 .f32) (g bt : Vec Ideal S64 .f32) : Vec Ideal S32x2 .f32 :=
  shapeCast S32x2 (subf bt (mulf (mulf (meanOf s1) g) (invOf s1 s2))) shapeCasts_S64_S32x2

theorem scale_eq (V : Valuation τ sig (Elt Ideal)) :
    (StableHlo.after (hostOps1 (F := Ideal)) V (Proc.devRef .tc main_v15) : S32x2.Idx → EReal)
      = scaleOf (V (Proc.devRef .tc main_v2_0)) (V (Proc.devRef .tc main_v2_1)) (V (Proc.devRef .tc main_arg3)) := by
  after_results; rfl

theorem shift_eq (V : Valuation τ sig (Elt Ideal)) :
    (StableHlo.after (hostOps1 (F := Ideal)) V (Proc.devRef .tc main_v19) : S32x2.Idx → EReal)
      = shiftOf (V (Proc.devRef .tc main_v2_0)) (V (Proc.devRef .tc main_v2_1)) (V (Proc.devRef .tc main_arg3)) (V (Proc.devRef .tc main_arg4)) := by
  after_results; rfl

/-- The second stretch writes neither the rows nor the transposed weights. -/
theorem rows_kept (V : Valuation τ sig (Elt Ideal)) :
    StableHlo.after (hostOps1 (F := Ideal)) V (Proc.devRef .tc main_v0) = V (Proc.devRef .tc main_v0) := by
  after_results
theorem wt_kept (V : Valuation τ sig (Elt Ideal)) :
    StableHlo.after (hostOps1 (F := Ideal)) V (Proc.devRef .tc main_v1) = V (Proc.devRef .tc main_v1) := by
  after_results

/-- A vector [64] re-laid as [32, 2] reads, at (p, n), the vector at 2p + n. -/
theorem relay_apply (x : S64.Idx → EReal) (p : Fin 32) (n : Fin 2) :
    shapeCast S32x2 x shapeCasts_S64_S32x2 (ix2 p n) = x (ix1 (Cert.Spec.pos p n)) :=
  shapeCast_apply x _ _ _ (by
    rw [Shape.rowMajor_val_one, Shape.rowMajor_val_two]
    show 2 * p.val + n.val = p.val * 2 + n.val
    omega)

theorem meanOf_apply (s1 : Vec Ideal S1x64 .f32) (j : Fin 64) :
    meanOf s1 (ix1 j) = Ideal.div (s1 (ix2 (0 : Fin 1) j)) Cert.Spec.cN := by
  unfold meanOf
  rw [hostDivf_apply, shapeCast_1a_a_apply, broadcastInDim_scalar_apply, constant_apply]
  rfl

theorem invOf_apply (s1 s2 : Vec Ideal S1x64 .f32) (j : Fin 64) :
    invOf s1 s2 (ix1 j) = Ideal.rsqrt (Ideal.div (s2 (ix2 (0 : Fin 1) j)) Cert.Spec.cN
      - Ideal.div (s1 (ix2 (0 : Fin 1) j)) Cert.Spec.cN * Ideal.div (s1 (ix2 (0 : Fin 1) j)) Cert.Spec.cN + Cert.Spec.cEps) := by
  unfold invOf
  show Ideal.rsqrt _ = _
  rw [addf_apply, subf_apply, mulf_apply, meanOf_apply, hostDivf_apply, shapeCast_1a_a_apply,
    broadcastInDim_scalar_apply, broadcastInDim_scalar_apply, constant_apply, constant_apply]
  rfl

/-- The scale at (p, n): γ at the position times the inverse root. -/
theorem scaleOf_apply (s1 s2 : Vec Ideal S1x64 .f32) (g : Vec Ideal S64 .f32) (p : Fin 32) (n : Fin 2) :
    scaleOf s1 s2 g (ix2 p n) = g (ix1 (Cert.Spec.pos p n)) * invOf s1 s2 (ix1 (Cert.Spec.pos p n)) := by
  unfold scaleOf
  rw [relay_apply, mulf_apply]

/-- The shift at (p, n): β at the position less mean times γ times the inverse root. -/
theorem shiftOf_apply (s1 s2 : Vec Ideal S1x64 .f32) (g bt : Vec Ideal S64 .f32) (p : Fin 32) (n : Fin 2) :
    shiftOf s1 s2 g bt (ix2 p n) = bt (ix1 (Cert.Spec.pos p n))
      - (meanOf s1 (ix1 (Cert.Spec.pos p n)) * g (ix1 (Cert.Spec.pos p n))) * invOf s1 s2 (ix1 (Cert.Spec.pos p n)) := by
  unfold shiftOf
  rw [relay_apply, subf_apply, mulf_apply, mulf_apply]

end Cert.KernelIdeal.HostValue

end
-- ==== Proof.KIEntry.lean ====
import proofs.«173164_j41257455845539_2_alg».proof.Proof.KIFrame
import proofs.«173164_j41257455845539_2_alg».proof.Proof.KIHostValue

/-!
What the second kernel region finds in its four input arrays, in terms of the launch memory and of what the first
region left in its two output arrays: the rows array and the transposed weights are the first host stretch's results,
untouched since (the first region only reads them, the second stretch does not write them); the scale and the shift
are the second stretch's results over the first region's two output arrays and the arguments γ, β as launched.
-/

noncomputable section

namespace Cert.KernelIdeal.Entry

open Cert.KernelIdeal Cert.KernelIdeal.Gen Cert.KernelIdeal.Hand Cert.KernelIdeal.HostValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- Region 0 is entered with the rows array at the pillars re-laid, -/
theorem V1_rows : (Hand.V1 m c main_v0 : S1048576x9.Idx → EReal)
    = shapeCast S1048576x9 (m ((c : Thread nD τ).loc main_arg0)) shapeCasts_S16384x32x2x9_S1048576x9 :=
  rows_eq (W0 m c)

/-- and the weights transposed. -/
theorem V1_wt : (Hand.V1 m c main_v1 : S9x64.Idx → EReal)
    = transpose S9x64 [1, 0] (m ((c : Thread nD τ).loc main_arg2)) transposes_S64x9_S9x64_1_0 :=
  wt_eq (W0 m c)

/-- Region 1 finds the rows array as region 0 did: an input window's array is not changed by its region, and the
    second stretch does not write it. -/
theorem V3_rows : Hand.V3 m c main_v0 = Hand.V1 m c main_v0 :=
  (rows_kept (W2 m c)).trans ((W2_arr m c 0).trans (((dat0 (Hand.V1 m) c).arrAt_in 0 rfl _).trans (A_eq0 (Hand.V1 m) c 0)))

theorem V3_wt : Hand.V3 m c main_v1 = Hand.V1 m c main_v1 :=
  (wt_kept (W2 m c)).trans ((W2_arr m c 1).trans (((dat0 (Hand.V1 m) c).arrAt_in 1 rfl _).trans (A_eq0 (Hand.V1 m) c 1)))

/-- γ and β reach the second stretch as launched. -/
theorem W2_gamma : W2 m c (Proc.devRef .tc main_arg3) = m ((c : Thread nD τ).loc main_arg3) :=
  (W2_of_ne m c main_arg3 (by decide)).trans ((StableHlo.after_of_writes_sub hostOps0 _ hostOps0_writes (by decide)).trans rfl)
theorem W2_beta : W2 m c (Proc.devRef .tc main_arg4) = m ((c : Thread nD τ).loc main_arg4) :=
  (W2_of_ne m c main_arg4 (by decide)).trans ((StableHlo.after_of_writes_sub hostOps0 _ hostOps0_writes (by decide)).trans rfl)

/-- The first region's two output arrays, after it. -/
theorem W2_sum1 : W2 m c (Proc.devRef .tc main_v2_0) = (dat0 (Hand.V1 m) c).arrAt 2 cfg0.N := W2_arr m c 2
theorem W2_sum2 : W2 m c (Proc.devRef .tc main_v2_1) = (dat0 (Hand.V1 m) c).arrAt 3 cfg0.N := W2_arr m c 3

/-- Region 1 finds the scale array at the second stretch's scale of the two accumulated sums and γ, -/
theorem V3_scale : (Hand.V3 m c main_v15 : S32x2.Idx → EReal)
    = scaleOf ((dat0 (Hand.V1 m) c).arrAt 2 cfg0.N) ((dat0 (Hand.V1 m) c).arrAt 3 cfg0.N) (m ((c : Thread nD τ).loc main_arg3)) := by
  refine (scale_eq (W2 m c)).trans ?_
  rw [W2_sum1 m c, W2_sum2 m c, W2_gamma m c]

/-- and the shift array at its shift of the sums, γ and β. -/
theorem V3_shift : (Hand.V3 m c main_v19 : S32x2.Idx → EReal)
    = shiftOf ((dat0 (Hand.V1 m) c).arrAt 2 cfg0.N) ((dat0 (Hand.V1 m) c).arrAt 3 cfg0.N) (m ((c : Thread nD τ).loc main_arg3))
        (m ((c : Thread nD τ).loc main_arg4)) := by
  refine (shift_eq (W2 m c)).trans ?_
  rw [W2_sum1 m c, W2_sum2 m c, W2_gamma m c, W2_beta m c]

end Cert.KernelIdeal.Entry

end
-- ==== Proof.KIReindex.lean ====
import proofs.«173164_j41257455845539_2_alg».proof.Proof.KIHostValue
import proofs.«173164_j41257455845539_2_alg».proof.Proof.Spec

/-!
The sums the kernel forms, re-indexed as the specification's.

Region 0 adds, block by block (32 blocks of 512 batch entries), over the batch entries of the block and over the 64
output channels, the products of a row of the re-laid pillars with a column of the transposed weights; the
specification sums over all 16384 batch entries at once. The two agree because (t, b) ↦ 512·t + b is a bijection of
32 × 512 onto 16384, and because row (B·64 + 2p + n) of the re-laid pillars is the point (B, p, n).
-/

noncomputable section

namespace Cert.KernelIdeal.Reindex

open Cert.KernelIdeal Cert.KernelIdeal.Gen Cert.KernelIdeal.HostValue Cert.Spec
open Idealize.ShloMosaic Idealize.ShloMosaic.ValueIdx
open scoped BigOperators

/-- The batch entry 512·t + b of block t. -/
def batchOf (t : Fin 32) (b : Fin 512) : Fin 16384 := ⟨t.val * 512 + b.val, by have := t.isLt; have := b.isLt; omega⟩

/-- A sum over the 16384 batch entries is the sum over the 32 blocks of the sums over a block's 512 entries. -/
theorem sum_batch {M : Type*} [AddCommMonoid M] (f : Fin 16384 → M) :
    ∑ t : Fin 32, ∑ b : Fin 512, f (batchOf t b) = ∑ B : Fin 16384, f B := by
  let e : Fin 32 × Fin 512 ≃ Fin 16384 := (finProdFinEquiv (m := 32) (n := 512)).trans (finCongr (by norm_num))
  rw [← Equiv.sum_comp e f, Fintype.sum_prod_type]
  refine Finset.sum_congr rfl fun t _ => Finset.sum_congr rfl fun b _ => congrArg f (Fin.ext ?_)
  show t.val * 512 + b.val = b.val + 512 * t.val
  omega

/-- One product row·column of the re-laid arrays is one term of the linear layer. -/
theorem lin_of_rows (P : Vec Ideal SP .f32) (W : Vec Ideal SW .f32) (r : Fin 1048576) (B : Fin 16384) (p : Fin 32) (n : Fin 2) (o : Fin 64)
    (hr : r.val = (B.val * 32 + p.val) * 2 + n.val) :
    ∑ k : Fin 9, shapeCast S1048576x9 P shapeCasts_S16384x32x2x9_S1048576x9 (ix2 r k)
        * transpose S9x64 [1, 0] W transposes_S64x9_S9x64_1_0 (ix2 k o)
      = lin P W B p n o := by
  unfold lin
  refine Finset.sum_congr rfl fun k _ => ?_
  rw [rows_apply P r B p n k hr, wt_apply]

/-- The block-by-block sum of the linear layer's values at a position is the specification's sum. -/
theorem sum_rows_S1 (P : Vec Ideal SP .f32) (W : Vec Ideal SW .f32) (p : Fin 32) (n : Fin 2)
    (r : Fin 32 → Fin 512 → Fin 1048576) (hr : ∀ t b, (r t b).val = (t.val * 512 + b.val) * 64 + (pos p n).val) :
    ∑ t : Fin 32, ∑ b : Fin 512, ∑ o : Fin 64, ∑ k : Fin 9,
        shapeCast S1048576x9 P shapeCasts_S16384x32x2x9_S1048576x9 (ix2 (r t b) k)
          * transpose S9x64 [1, 0] W transposes_S64x9_S9x64_1_0 (ix2 k o)
      = S1 P W p n := by
  unfold S1
  rw [← sum_batch (fun B => ∑ o : Fin 64, lin P W B p n o)]
  refine Finset.sum_congr rfl fun t _ => Finset.sum_congr rfl fun b _ => Finset.sum_congr rfl fun o _ => ?_
  refine lin_of_rows P W (r t b) (batchOf t b) p n o ?_
  rw [hr t b]; show _ = ((t.val * 512 + b.val) * 32 + p.val) * 2 + n.val
  show (t.val * 512 + b.val) * 64 + (2 * p.val + n.val) = _
  omega

/-- The same for the squares. -/
theorem sum_rows_S2 (P : Vec Ideal SP .f32) (W : Vec Ideal SW .f32) (p : Fin 32) (n : Fin 2)
    (r : Fin 32 → Fin 512 → Fin 1048576) (hr : ∀ t b, (r t b).val = (t.val * 512 + b.val) * 64 + (pos p n).val) :
    ∑ t : Fin 32, ∑ b : Fin 512, ∑ o : Fin 64,
        (∑ k : Fin 9, shapeCast S1048576x9 P shapeCasts_S16384x32x2x9_S1048576x9 (ix2 (r t b) k)
          * transpose S9x64 [1, 0] W transposes_S64x9_S9x64_1_0 (ix2 k o))
        * (∑ k : Fin 9, shapeCast S1048576x9 P shapeCasts_S16384x32x2x9_S1048576x9 (ix2 (r t b) k)
          * transpose S9x64 [1, 0] W transposes_S64x9_S9x64_1_0 (ix2 k o))
      = S2 P W p n := by
  unfold S2
  rw [← sum_batch (fun B => ∑ o : Fin 64, lin P W B p n o * lin P W B p n o)]
  refine Finset.sum_congr rfl fun t _ => Finset.sum_congr rfl fun b _ => Finset.sum_congr rfl fun o _ => ?_
  have h : (r t b).val = ((batchOf t b).val * 32 + p.val) * 2 + n.val := by
    rw [hr t b]; show (t.val * 512 + b.val) * 64 + (2 * p.val + n.val) = ((t.val * 512 + b.val) * 32 + p.val) * 2 + n.val
    omega
  rw [lin_of_rows P W (r t b) (batchOf t b) p n o h]

end Cert.KernelIdeal.Reindex

end
-- ==== Proof.KIMainValue.lean ====
/- The value the second TensorCore call's body stores, read at one index of its output block, at the ideal values.
   The body multiplies its block of rows (16384 rows of 9 features: row (b*32+p)*2+n is batch row b, pillar p, point n)
   by the 9 x 64 weights, scales and shifts each entry by its position's two coefficients, clamps at zero, and takes
   the larger of the two points n = 0, 1 of each pillar; it stores the result with the channel before the pillar.
   So the entry at (b, o, p) is  max (act 0) (act 1),  act n = max ((sum_k x0[(b*32+p)*2+n, k] * x1[k, o]) * x2[p, n] + x3[p, n]) 0. -/
import proofs.«173164_j41257455845539_2_alg».proof.Proof.KIRegion1
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MainValue

open Cert.KernelIdeal Cert.KernelIdeal.Gen
open Idealize.ShloMosaic Idealize.ShloMosaic.ValueIdx

/-! ## Two facts about the extended reals -/

/-- The word 0xFF800000 is minus infinity, the least extended real. -/
theorem ofBits_neginf_f32 : Ideal.ofBits .f32 0xFF800000#32 = (⊥ : EReal) := by
  simp [Ideal.ofBits, Ideal.ieee]

/-- A fold of max over a two-element index set, from c: the larger of the two entries and c. -/
theorem fold_max_fin2 (c : EReal) (g : Fin 2 → EReal) :
    (Finset.univ : Finset (Fin 2)).fold max c g = max (g 0) (max (g 1) c) := by
  rw [show (Finset.univ : Finset (Fin 2)) = insert 0 {1} from by decide]
  rw [Finset.fold_insert (by decide), Finset.fold_singleton]

/-! ## The maximum over the two points of a pillar -/

/-- Over the result index (b, p, o), the source index with point n on the reduced axis is (b, p, n, o). -/
theorem lift_red (h : S256x32x2x64.Reduces [2] S256x32x64) (b : Fin 256) (p : Fin 32) (o : Fin 64) (n : Fin 2) :
    h.lift (ix3 b p o) n = ix4 b p n o := by
  funext c
  apply Fin.ext
  show Shape.Reduces.liftVal h (ix3 b p o) n.val c = (ix4 b p n o c).val
  unfold Shape.Reduces.liftVal
  match c with
  | ⟨0, _⟩ => rfl
  | ⟨1, _⟩ => rfl
  | ⟨2, _⟩ => rfl
  | ⟨3, _⟩ => rfl

/-- The reduction by maximum over the point axis, from minus infinity, read at (b, p, o): the larger of the two points' entries. -/
theorem maxred_apply (src : FVec Ideal S256x32x2x64 .f32) (h : S256x32x2x64.Reduces [2] S256x32x64) (hφ : FKind.Formats .f32)
    (hacc : (0xFF800000#32 : BitVec FTy.f32.bits) = FKind.maximumf.neutral .f32 hφ) (b : Fin 256) (p : Fin 32) (o : Fin 64) :
    multiReduction (F := Ideal) .maximumf [2] S256x32x64 src 0xFF800000#32 h hφ hacc (ix3 b p o)
      = max (src (ix4 b p 0 o)) (src (ix4 b p 1 o)) := by
  refine (Ideal.multiReduction_maximumf_single src _ h hφ hacc (ix3 b p o)).trans ?_
  refine (fold_max_fin2 (Ideal.ofBits .f32 0xFF800000#32) (fun n => src (h.lift (ix3 b p o) n))).trans ?_
  rw [ofBits_neginf_f32, max_bot_right]
  exact congrArg₂ max (congrArg src (lift_red h b p o 0)) (congrArg src (lift_red h b p o 1))

/-! ## The product with the weights -/

/-- The row of the body's 16384-row block that holds batch row b (of the block's 256), pillar p, point n. -/
def row1 (b : Fin 256) (p : Fin 32) (n : Fin 2) : Fin 16384 := ⟨(b.val * 32 + p.val) * 2 + n.val, by omega⟩

theorem dot_lhs0 (i : S16384x64.Idx) (q : dot_S16384x9_S9x64_S16384x64_1_0_0_1_n_n.contr.Idx) :
    (dot_S16384x9_S9x64_S16384x64_1_0_0_1_n_n.lhsIdx i q 0).val = (i 0).val := by
  unfold DotDims.lhsIdx
  rw [dif_neg (show ¬(0 : Fin S16384x9.rank) ∈ dot_S16384x9_S9x64_S16384x64_1_0_0_1_n_n.lhsBatch by decide), dif_pos (show (0 : Fin S16384x9.rank) ∈ dot_S16384x9_S9x64_S16384x64_1_0_0_1_n_n.lhsNonContracting by decide)]
  rfl
theorem dot_lhs1 (i : S16384x64.Idx) (q : dot_S16384x9_S9x64_S16384x64_1_0_0_1_n_n.contr.Idx) :
    (dot_S16384x9_S9x64_S16384x64_1_0_0_1_n_n.lhsIdx i q 1).val = (q ⟨0, by decide⟩).val :=
  dot_S16384x9_S9x64_S16384x64_1_0_0_1_n_n.lhsIdx_val_of_single rfl i q
theorem dot_rhs0 (i : S16384x64.Idx) (q : dot_S16384x9_S9x64_S16384x64_1_0_0_1_n_n.contr.Idx) :
    (dot_S16384x9_S9x64_S16384x64_1_0_0_1_n_n.rhsIdx i q 0).val = (q ⟨0, by decide⟩).val :=
  dot_S16384x9_S9x64_S16384x64_1_0_0_1_n_n.rhsIdx_val_of_single rfl i q
theorem dot_rhs1 (i : S16384x64.Idx) (q : dot_S16384x9_S9x64_S16384x64_1_0_0_1_n_n.contr.Idx) :
    (dot_S16384x9_S9x64_S16384x64_1_0_0_1_n_n.rhsIdx i q 1).val = (i 1).val := by
  unfold DotDims.rhsIdx
  rw [dif_neg (show ¬(1 : Fin S9x64.rank) ∈ dot_S16384x9_S9x64_S16384x64_1_0_0_1_n_n.rhsBatch by decide), dif_pos (show (1 : Fin S9x64.rank) ∈ dot_S16384x9_S9x64_S16384x64_1_0_0_1_n_n.rhsNonContracting by decide)]
  rfl

/-- The block product into a zero accumulator, read at (r, o): the sum over the 9 features of row r's entries times
    the weights' column o. -/
theorem matmul_row_apply (lhs : FVec Ideal S16384x9 .bf16) (rhs : FVec Ideal S9x64 .bf16) (r : Fin 16384) (o : Fin 64) :
    matmul dot_S16384x9_S9x64_S16384x64_1_0_0_1_n_n none lhs rhs (constant (F := Ideal) S16384x64 .f32 0x00000000#32) (ix2 r o)
      = ∑ k : Fin 9, lhs (ix2 r k) * rhs (ix2 k o) := by
  simp only [matmul]
  rw [Ideal.matmul_constant_zero_apply, ← Equiv.sum_comp (contrEquiv1 dot_S16384x9_S9x64_S16384x64_1_0_0_1_n_n 9 rfl rfl).symm]
  refine Finset.sum_congr rfl fun k _ => ?_
  have hk := contrEquiv1_symm_val dot_S16384x9_S9x64_S16384x64_1_0_0_1_n_n 9 rfl rfl k
  have el : dot_S16384x9_S9x64_S16384x64_1_0_0_1_n_n.lhsIdx (ix2 r o) ((contrEquiv1 dot_S16384x9_S9x64_S16384x64_1_0_0_1_n_n 9 rfl rfl).symm k) = ix2 r k := funext fun a => Fin.ext (by
    match a with
    | ⟨0, _⟩ => exact dot_lhs0 _ _
    | ⟨1, _⟩ => exact (dot_lhs1 _ _).trans hk)
  have er : dot_S16384x9_S9x64_S16384x64_1_0_0_1_n_n.rhsIdx (ix2 r o) ((contrEquiv1 dot_S16384x9_S9x64_S16384x64_1_0_0_1_n_n 9 rfl rfl).symm k) = ix2 k o := funext fun a => Fin.ext (by
    match a with
    | ⟨0, _⟩ => exact (dot_rhs0 _ _).trans hk
    | ⟨1, _⟩ => exact dot_rhs1 _ _)
  rw [el, er]

/-! ## The layout operations -/

/-- The 16384 x 64 product regrouped as batch row, pillar, point, channel: entry (b, p, n, o) is row (b*32+p)*2+n, column o. -/
theorem regroup_apply {α : Type} (x : S16384x64.Idx → α) (h : S16384x64.ShapeCasts S256x32x2x64) (b : Fin 256) (p : Fin 32) (n : Fin 2) (o : Fin 64) :
    shapeCast S256x32x2x64 x h (ix4 b p n o) = x (ix2 (row1 b p n) o) := by
  refine shapeCast_apply x h _ _ ?_
  rw [Shape.rowMajor_val_two, Shape.rowMajor_val_four]
  show ((b.val * 32 + p.val) * 2 + n.val) * 64 + o.val = ((b.val * 32 + p.val) * 2 + n.val) * 64 + o.val
  rfl

/-- A per-position coefficient (32 pillars x 2 points), spread over every batch row and channel: entry (b, p, n, o) is
    the coefficient of (p, n). -/
theorem coeff_apply {α : Type} (v : S32x2.Idx → α) (h0 : S32x2.ShapeCasts S32x2) (h1 : S32x2.ShapeCasts S1x32x2x1)
    (h2 : S1x32x2x1.ShapeCasts S1x32x2x1) (h3 : S1x32x2x1.Broadcasts S256x32x2x64) (b : Fin 256) (p : Fin 32) (n : Fin 2) (o : Fin 64) :
    broadcastTo S256x32x2x64 (shapeCast S1x32x2x1 (shapeCast S1x32x2x1 (shapeCast S32x2 v h0) h1) h2) h3 (ix4 b p n o) = v (ix2 p n) := by
  rw [shapeCast_self, shapeCast_self]
  refine (broadcastTo_apply _ h3 (ix4 b p n o) (ix4 (0 : Fin 1) p n (0 : Fin 1)) fun a => ?_).trans ?_
  · match a with
    | ⟨0, _⟩ => rfl
    | ⟨1, _⟩ => rfl
    | ⟨2, _⟩ => rfl
    | ⟨3, _⟩ => rfl
  · refine shapeCast_apply v h1 _ _ ?_
    rw [Shape.rowMajor_val_two, Shape.rowMajor_val_four]
    show p.val * 2 + n.val = (((0 : Fin 1).val * 32 + p.val) * 2 + n.val) * 1 + (0 : Fin 1).val
    simp

/-! ## The stored value at an index -/

/-- The entry of (batch row b of the block, pillar p, point n, channel o) before the two points are pooled: the row's
    product with the weights' column, scaled and shifted by the position's coefficients, clamped at zero. -/
def act1 (x0 : Vec Ideal S16384x9 .f32) (x1 : Vec Ideal S9x64 .f32) (x2 x3 : Vec Ideal S32x2 .f32)
    (b : Fin 256) (o : Fin 64) (p : Fin 32) (n : Fin 2) : EReal :=
  max ((∑ k : Fin 9, x0 (ix2 (row1 b p n) k) * x1 (ix2 k o)) * x2 (ix2 p n) + x3 (ix2 p n)) 0

/-- The value the body stores, at (b, o, p): the larger of the two points' entries of pillar p, channel o, batch row b. -/
theorem pay1_apply (x0 : Vec Ideal S16384x9 .f32) (x1 : Vec Ideal S9x64 .f32) (x2 x3 : Vec Ideal S32x2 .f32)
    (b : Fin 256) (o : Fin 64) (p : Fin 32) :
    k1_pay1 (F := Ideal) x0 x1 x2 x3 (ix3 b o p) = max (act1 x0 x1 x2 x3 b o p 0) (act1 x0 x1 x2 x3 b o p 1) := by
  unfold k1_pay1
  refine (transpose_ix3_021_apply _ _ b o p).trans ?_
  refine (maxred_apply _ _ _ _ b p o).trans ?_
  refine congrArg₂ max ?_ ?_
  · simp only [maximumf_apply, addf_apply, mulf_apply, broadcast_apply]
    rw [regroup_apply, coeff_apply, coeff_apply, matmul_row_apply]
    simp only [truncf_apply, shapeCast_self]
    unfold act1
    exact congrArg (max _) Ideal.ofBits_zero_f32
  · simp only [maximumf_apply, addf_apply, mulf_apply, broadcast_apply]
    rw [regroup_apply, coeff_apply, coeff_apply, matmul_row_apply]
    simp only [truncf_apply, shapeCast_self]
    unfold act1
    exact congrArg (max _) Ideal.ofBits_zero_f32

end Cert.KernelIdeal.MainValue

end
-- ==== Proof.KIMainBlocks.lean ====
/- From the output window's blocks to the whole output array of the second TensorCore call, at the ideal values.
   Grid point t handles batch rows 256 t .. 256 t + 255: it reads rows 16384 t .. 16384 t + 16383 of the 1048576 x 9
   row array (row ((B*32+p)*2+n) is batch row B, pillar p, point n), the whole weights and the two whole coefficient
   arrays, and writes block t of the output. Every block is the restriction of ONE function of the four arrays,
   and the 64 blocks tile the output (batch row B lies in block B / 256): so the output array is that function. -/
import proofs.«173164_j41257455845539_2_alg».proof.Proof.KIMainValue
import Idealize.ShloMosaic.Lib.Pipeline.Value

noncomputable section

namespace Cert.KernelIdeal.MainValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## The output array as one function of the four arrays the body reads -/

/-- The row of the 1048576-row array that holds batch row B, pillar p, point n. -/
def rowA (B : Fin 16384) (p : Fin 32) (n : Fin 2) : Fin 1048576 := ⟨(B.val * 32 + p.val) * 2 + n.val, by omega⟩

/-- The entry of (batch row B, pillar p, point n, channel o) before the two points are pooled. -/
def actA (a0 : S1048576x9.Idx → EReal) (a1 : S9x64.Idx → EReal) (a2 a3 : S32x2.Idx → EReal)
    (B : Fin 16384) (o : Fin 64) (p : Fin 32) (n : Fin 2) : EReal :=
  max ((∑ k : Fin 9, a0 (ix2 (rowA B p n) k) * a1 (ix2 k o)) * a2 (ix2 p n) + a3 (ix2 p n)) 0

/-- The output array: at (B, o, p) the larger of the two points' entries. -/
def G4 (a0 : S1048576x9.Idx → EReal) (a1 : S9x64.Idx → EReal) (a2 a3 : S32x2.Idx → EReal) : S16384x64x32.Idx → EReal := fun i =>
  max (actA a0 a1 a2 a3 ⟨(i 0).val, (i 0).isLt⟩ ⟨(i 1).val, (i 1).isLt⟩ ⟨(i 2).val, (i 2).isLt⟩ 0)
    (actA a0 a1 a2 a3 ⟨(i 0).val, (i 0).isLt⟩ ⟨(i 1).val, (i 1).isLt⟩ ⟨(i 2).val, (i 2).isLt⟩ 1)

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 points: the row window and the output window move with the point along
    their leading axis; every other block index is zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-! ## The input windows' blocks, read at an index -/

/-- Row r of point t's block of rows is row 16384 t + r of the row array. -/
theorem blk0_apply (c : Dev nD) (t : Fin cfg1.N) (r : Fin 16384) (k : Fin 9) (R : Fin 1048576) (hR : R.val = t.val * 16384 + r.val) :
    iblk1 V c 0 t (ix2 r k) = (V c main_v0 : S1048576x9.Idx → EReal) (ix2 R k) := by
  obtain ⟨e00, e01, -⟩ := idx_facts1 t
  show (V c main_v0 : S1048576x9.Idx → EReal) (((cfg1.win 0).blk t).view.emb (ix2 r k)) = _
  refine congrArg _ (funext fun a => Fin.ext ?_)
  match a with
  | ⟨0, _⟩ => show win1_0.index t (0 : Fin 2) * 16384 + 1 * r.val = R.val; omega
  | ⟨1, _⟩ => show win1_0.index t (1 : Fin 2) * 9 + 1 * k.val = k.val; omega

/-- The weights' block is the whole weights array. -/
theorem blk1_apply (c : Dev nD) (t : Fin cfg1.N) (k : Fin 9) (o : Fin 64) :
    iblk1 V c 1 t (ix2 k o) = (V c main_v1 : S9x64.Idx → EReal) (ix2 k o) := by
  obtain ⟨-, -, e10, e11, -⟩ := idx_facts1 t
  show (V c main_v1 : S9x64.Idx → EReal) (((cfg1.win 1).blk t).view.emb (ix2 k o)) = _
  refine congrArg _ (funext fun a => Fin.ext ?_)
  match a with
  | ⟨0, _⟩ => show win1_1.index t (0 : Fin 2) * 9 + 1 * k.val = k.val; omega
  | ⟨1, _⟩ => show win1_1.index t (1 : Fin 2) * 64 + 1 * o.val = o.val; omega

/-- The scale coefficients' block is the whole array. -/
theorem blk2_apply (c : Dev nD) (t : Fin cfg1.N) (p : Fin 32) (n : Fin 2) :
    iblk1 V c 2 t (ix2 p n) = (V c main_v15 : S32x2.Idx → EReal) (ix2 p n) := by
  obtain ⟨-, -, -, -, e20, e21, -⟩ := idx_facts1 t
  show (V c main_v15 : S32x2.Idx → EReal) (((cfg1.win 2).blk t).view.emb (ix2 p n)) = _
  refine congrArg _ (funext fun a => Fin.ext ?_)
  match a with
  | ⟨0, _⟩ => show win1_2.index t (0 : Fin 2) * 32 + 1 * p.val = p.val; omega
  | ⟨1, _⟩ => show win1_2.index t (1 : Fin 2) * 2 + 1 * n.val = n.val; omega

/-- The shift coefficients' block is the whole array. -/
theorem blk3_apply (c : Dev nD) (t : Fin cfg1.N) (p : Fin 32) (n : Fin 2) :
    iblk1 V c 3 t (ix2 p n) = (V c main_v19 : S32x2.Idx → EReal) (ix2 p n) := by
  obtain ⟨-, -, -, -, -, -, e30, e31, -⟩ := idx_facts1 t
  show (V c main_v19 : S32x2.Idx → EReal) (((cfg1.win 3).blk t).view.emb (ix2 p n)) = _
  refine congrArg _ (funext fun a => Fin.ext ?_)
  match a with
  | ⟨0, _⟩ => show win1_3.index t (0 : Fin 2) * 32 + 1 * p.val = p.val; omega
  | ⟨1, _⟩ => show win1_3.index t (1 : Fin 2) * 2 + 1 * n.val = n.val; omega

/-- The entry of the block's batch row b at point t is the array's entry of batch row 256 t + b: the block's row
    (b*32+p)*2+n is the array's row 16384 t + (b*32+p)*2+n = ((256 t + b)*32+p)*2+n. -/
theorem act_blk (c : Dev nD) (t : Fin cfg1.N) (b : Fin 256) (o : Fin 64) (p : Fin 32) (n : Fin 2)
    (B : Fin 16384) (hB : B.val = t.val * 256 + b.val) :
    act1 (iblk1 V c 0 t) (iblk1 V c 1 t) (iblk1 V c 2 t) (iblk1 V c 3 t) b o p n
      = actA (V c main_v0) (V c main_v1) (V c main_v15) (V c main_v19) B o p n := by
  unfold act1 actA
  have h0 : ∀ k : Fin 9, iblk1 V c 0 t (ix2 (row1 b p n) k) = (V c main_v0 : S1048576x9.Idx → EReal) (ix2 (rowA B p n) k) :=
    fun k => blk0_apply V c t (row1 b p n) k (rowA B p n) (by
      show (B.val * 32 + p.val) * 2 + n.val = t.val * 16384 + ((b.val * 32 + p.val) * 2 + n.val)
      omega)
  have h1 : ∀ k : Fin 9, iblk1 V c 1 t (ix2 k o) = (V c main_v1 : S9x64.Idx → EReal) (ix2 k o) := fun k => blk1_apply V c t k o
  have h2 := blk2_apply V c t p n
  have h3 := blk3_apply V c t p n
  refine congrArg (max · 0) (congrArg₂ (· + ·) (congrArg₂ (· * ·) (Finset.sum_congr rfl fun k _ => congrArg₂ (· * ·) (h0 k) (h1 k)) h2) h3)

/-! ## What a point writes back, and the cover -/

/-- What point t writes back is block t of G4 of the four arrays as the region finds them. -/
theorem flushed4_eq (c : Dev nD) (t : Fin cfg1.N) :
    (dat1 (F := Ideal) V c).flushed 4 t
      = ((cfg1.win 4).blk t).view.read (Elt Ideal) (G4 (V c main_v0) (V c main_v1) (V c main_v15) (V c main_v19)) := by
  show (cfg1.win 4).cut (grid1.coords t) ((dat1 (F := Ideal) V c).after 4 t) = _
  rw [after1_4]
  unfold out1_4
  rw [View.canon_unit_zero hz3]
  simp only [View.ld_unit_zero (S := S16384x9) hz2, View.ld_unit_zero (S := S9x64) hz2, View.ld_unit_zero (S := S32x2) hz2]
  obtain ⟨-, -, -, -, -, -, -, -, e40, e41, e42⟩ := idx_facts1 t
  have hN : grid1.N = 64 := N_1
  have ht : t.val < 64 := (show t.val < grid1.N from t.isLt).trans_eq N_1
  funext j
  obtain ⟨b, o, p, rfl⟩ : ∃ (b : Fin 256) (o : Fin 64) (p : Fin 32), j = ix3 b o p := ⟨j 0, j 1, j 2, eq_ix3 j⟩
  show k1_pay1 (F := Ideal) (iblk1 V c 0 t) (iblk1 V c 1 t) (iblk1 V c 2 t) (iblk1 V c 3 t) (ix3 b o p)
    = G4 (V c main_v0) (V c main_v1) (V c main_v15) (V c main_v19) (((cfg1.win 4).blk t).view.emb (ix3 b o p))
  refine (pay1_apply _ _ _ _ b o p).trans ?_
  have hB : ((((cfg1.win 4).blk t).view.emb (ix3 b o p)) 0).val = t.val * 256 + b.val := by
    show win1_4.index t (0 : Fin 3) * 256 + 1 * b.val = _; omega
  have ho : ((((cfg1.win 4).blk t).view.emb (ix3 b o p)) 1).val = o.val := by
    show win1_4.index t (1 : Fin 3) * 64 + 1 * o.val = _; omega
  have hp : ((((cfg1.win 4).blk t).view.emb (ix3 b o p)) 2).val = p.val := by
    show win1_4.index t (2 : Fin 3) * 32 + 1 * p.val = _; omega
  unfold G4
  have eo : (⟨((((cfg1.win 4).blk t).view.emb (ix3 b o p)) 1).val, ((((cfg1.win 4).blk t).view.emb (ix3 b o p)) 1).isLt⟩ : Fin 64) = o := Fin.ext ho
  have ep : (⟨((((cfg1.win 4).blk t).view.emb (ix3 b o p)) 2).val, ((((cfg1.win 4).blk t).view.emb (ix3 b o p)) 2).isLt⟩ : Fin 32) = p := Fin.ext hp
  rw [eo, ep]
  exact congrArg₂ max (act_blk V c t b o p 0 _ hB) (act_blk V c t b o p 1 _ hB)

/-- An index of the output array is in point t's block iff each coordinate is in the block's range on its axis. -/
theorem mem_blk4 (t : Fin cfg1.N) (i : S16384x64x32.Idx) :
    i ∈ ((cfg1.win 4).blk t).view.set ↔ ∀ a : Fin 3, win1_4.index t a * S256x64x32.size a ≤ (i a).val ∧ (i a).val < win1_4.index t a * S256x64x32.size a + S256x64x32.size a := by
  show i ∈ ((View.whole main_v20).slice (win1_4.rect t)).set ↔ _
  rw [View.set_slice_whole, Rect.mem_set_unit]
  exact Iff.rfl

/-- Every index of the output array is in some point's block: batch row B is in block B / 256. -/
theorem cover4 (i : S16384x64x32.Idx) : ∃ t : Fin cfg1.N, (cfg1.win 4).flush t = true ∧ i ∈ ((cfg1.win 4).blk t).view.set := by
  have hi0 : (i 0).val < 16384 := (i 0).isLt
  have hi1 : (i 1).val < 64 := (i 1).isLt
  have hi2 : (i 2).val < 32 := (i 2).isLt
  have hN : grid1.N = 64 := N_1
  have hlt : (i 0).val / 256 < cfg1.N := by show (i 0).val / 256 < grid1.N; omega
  obtain ⟨-, -, -, -, -, -, -, -, e40, e41, e42⟩ := idx_facts1 ⟨(i 0).val / 256, hlt⟩
  have e40' : win1_4.index ⟨(i 0).val / 256, hlt⟩ (0 : Fin 3) = (i 0).val / 256 := e40
  refine ⟨⟨(i 0).val / 256, hlt⟩, flush1_4 _, ?_⟩
  rw [mem_blk4]
  intro a
  match a with
  | ⟨0, _⟩ => show win1_4.index ⟨(i 0).val / 256, hlt⟩ (0 : Fin 3) * 256 ≤ (i 0).val ∧ (i 0).val < win1_4.index ⟨(i 0).val / 256, hlt⟩ (0 : Fin 3) * 256 + 256; omega
  | ⟨1, _⟩ => show win1_4.index ⟨(i 0).val / 256, hlt⟩ (1 : Fin 3) * 64 ≤ (i 1).val ∧ (i 1).val < win1_4.index ⟨(i 0).val / 256, hlt⟩ (1 : Fin 3) * 64 + 64; omega
  | ⟨2, _⟩ => show win1_4.index ⟨(i 0).val / 256, hlt⟩ (2 : Fin 3) * 32 ≤ (i 2).val ∧ (i 2).val < win1_4.index ⟨(i 0).val / 256, hlt⟩ (2 : Fin 3) * 32 + 32; omega

/-! ## The output array after the region -/

/-- The output array after the 64 points' write-backs is G4 of the four arrays as the region finds them. -/
theorem arr4_eq (c : Dev nD) :
    (dat1 (F := Ideal) V c).arrAt 4 cfg1.N = G4 (V c main_v0) (V c main_v1) (V c main_v15) (V c main_v19) :=
  (dat1 (F := Ideal) V c).arrAt_eq_of_cover 4 (G4 (V c main_v0) (V c main_v1) (V c main_v15) (V c main_v19))
    (fun t _ => flushed4_eq V c t) cover4

/-- Read at (B, o, p): the larger of the two points' entries. -/
theorem arr4_apply (c : Dev nD) (B : Fin 16384) (o : Fin 64) (p : Fin 32) :
    (dat1 (F := Ideal) V c).arrAt 4 cfg1.N (ix3 B o p)
      = max (actA (V c main_v0) (V c main_v1) (V c main_v15) (V c main_v19) B o p 0)
          (actA (V c main_v0) (V c main_v1) (V c main_v15) (V c main_v19) B o p 1) := by
  rw [arr4_eq]
  rfl

end Cert.KernelIdeal.MainValue

end
-- ==== Proof.KIValue.lean ====
import proofs.«173164_j41257455845539_2_alg».proof.Proof.KIEntry
import proofs.«173164_j41257455845539_2_alg».proof.Proof.KIReindex
import proofs.«173164_j41257455845539_2_alg».proof.Proof.KIMainBlocks
import proofs.«173164_j41257455845539_2_alg».proof.Proof.Spec

/-!
# The second region's output array is the folded form of the specification

The second region reads the re-laid pillars, the transposed weights, and the scale and shift arrays the second host
stretch formed from the first region's two accumulated sums. Given that those two sums are, per position, the
block-by-block sums of the linear layer's values and of their squares, they are the specification's S1 and S2; the
scale is then γ·r and the shift β − (μ·γ)·r with μ and r the folded form's mean and inverse root; and the entry
the region writes at (B, o, p) is the larger over the two points of max (x·scale + shift) 0: the folded form.
-/

noncomputable section

namespace Cert.KernelIdeal.Value

open Cert.KernelIdeal Cert.KernelIdeal.Gen Cert.KernelIdeal.HostValue Cert.KernelIdeal.MainValue Cert.Spec
open Idealize.ShloMosaic Idealize.ShloMosaic.TcCoe Idealize.ShloMosaic.ValueIdx Idealize.SL.Sem
open scoped BigOperators

/-- The row of block t, batch entry b of the block, at position j. -/
def rowT (t : Fin 32) (b : Fin 512) (j : Fin 64) : Fin 1048576 := ⟨(t.val * 512 + b.val) * 64 + j.val, by omega⟩

/-! ## One entry, over abstract arrays -/

section Abstract

variable (P : Vec Ideal SP .f32) (W : Vec Ideal SW .f32) (γ β : Vec Ideal SV .f32) (s1 s2 : Vec Ideal S1x64 .f32)
  (h1 : ∀ (p : Fin 32) (n : Fin 2), s1 (ix2 (0 : Fin 1) (pos p n)) = S1 P W p n)
  (h2 : ∀ (p : Fin 32) (n : Fin 2), s2 (ix2 (0 : Fin 1) (pos p n)) = S2 P W p n)

include h1 in
/-- The mean the second stretch forms from the first sum is the folded form's. -/
theorem mean_eq (p : Fin 32) (n : Fin 2) : meanOf s1 (ix1 (pos p n)) = kMean P W p n := by
  rw [meanOf_apply, h1]; rfl

include h1 h2 in
/-- The inverse root it forms from the two sums is the folded form's. -/
theorem inv_eq (p : Fin 32) (n : Fin 2) : invOf s1 s2 (ix1 (pos p n)) = kInv P W p n := by
  rw [invOf_apply, h1, h2]; rfl

include h1 h2 in
/-- The scale at (p, n) is γ·r. -/
theorem scale_kA (p : Fin 32) (n : Fin 2) : scaleOf s1 s2 γ (ix2 p n) = kA P W γ p n := by
  rw [scaleOf_apply, inv_eq P W s1 s2 h1 h2]; rfl

include h1 h2 in
/-- The shift at (p, n) is β − (μ·γ)·r. -/
theorem shift_kB (p : Fin 32) (n : Fin 2) : shiftOf s1 s2 γ β (ix2 p n) = kB P W γ β p n := by
  rw [shiftOf_apply, mean_eq P W s1 h1, inv_eq P W s1 s2 h1 h2]; rfl

include h1 h2 in
/-- The entry of (B, p, n, o) before pooling, over the re-laid arrays and the formed scale and shift, is the folded
    form's element. -/
theorem act_kElt (B : Fin 16384) (o : Fin 64) (p : Fin 32) (n : Fin 2) :
    actA (shapeCast S1048576x9 P shapeCasts_S16384x32x2x9_S1048576x9) (transpose S9x64 [1, 0] W transposes_S64x9_S9x64_1_0)
        (scaleOf s1 s2 γ) (shiftOf s1 s2 γ β) B o p n
      = kElt P W γ β B p n o := by
  unfold actA kElt
  rw [Reindex.lin_of_rows P W (rowA B p n) B p n o rfl, scale_kA P W γ s1 s2 h1 h2, shift_kB P W γ β s1 s2 h1 h2]

end Abstract

/-! ## The output array -/

variable (m : (ℓ : Loc nD τ sig) → Buf (Elt Ideal) ℓ) (c : Dev nD)

/-- The arrays the statement speaks of, typed as arrays of extended reals: the rows and the transposed weights as the
    first region finds them, the two arrays of sums it leaves, and the output array the second region leaves. -/
abbrev rowsArr : S1048576x9.Idx → EReal := Hand.V1 m c main_v0
abbrev wtArr : S9x64.Idx → EReal := Hand.V1 m c main_v1
abbrev sum1Arr : S1x64.Idx → EReal := (Hand.dat0 (F := Ideal) (Hand.V1 m) c).arrAt 2 cfg0.N
abbrev sum2Arr : S1x64.Idx → EReal := (Hand.dat0 (F := Ideal) (Hand.V1 m) c).arrAt 3 cfg0.N
abbrev outArr : S16384x64x32.Idx → EReal := (Hand.dat1 (F := Ideal) (Hand.V3 m) c).arrAt 4 cfg1.N
abbrev argP : SP.Idx → EReal := m ((c : Thread nD τ).loc main_arg0)
abbrev argW : SW.Idx → EReal := m ((c : Thread nD τ).loc main_arg2)
abbrev argG : SV.Idx → EReal := m ((c : Thread nD τ).loc main_arg3)
abbrev argB : SV.Idx → EReal := m ((c : Thread nD τ).loc main_arg4)

/-- THE KERNEL COMPUTES THE FOLDED FORM, given the first region's two accumulated sums per position (r is the row of
    block t, batch entry b, position j). -/
theorem kernel_value_of (r : Fin 32 → Fin 512 → Fin 64 → Fin 1048576)
    (hr : ∀ t b j, (r t b j).val = (t.val * 512 + b.val) * 64 + j.val)
    (h2 : ∀ j : Fin 64, sum1Arr m c (ix2 (0 : Fin 1) j)
      = ∑ t : Fin 32, ∑ b : Fin 512, ∑ o : Fin 64, ∑ k : Fin 9, rowsArr m c (ix2 (r t b j) k) * wtArr m c (ix2 k o))
    (h3 : ∀ j : Fin 64, sum2Arr m c (ix2 (0 : Fin 1) j)
      = ∑ t : Fin 32, ∑ b : Fin 512, ∑ o : Fin 64,
          (∑ k : Fin 9, rowsArr m c (ix2 (r t b j) k) * wtArr m c (ix2 k o))
          * (∑ k : Fin 9, rowsArr m c (ix2 (r t b j) k) * wtArr m c (ix2 k o))) :
    outArr m c = Cert.Spec.kernelG (argP m c) (argW m c) (argG m c) (argB m c) := by
  have er : rowsArr m c = shapeCast S1048576x9 (argP m c) shapeCasts_S16384x32x2x9_S1048576x9 := Entry.V1_rows m c
  have ew : wtArr m c = transpose S9x64 [1, 0] (argW m c) transposes_S64x9_S9x64_1_0 := Entry.V1_wt m c
  have hS1 : ∀ (p : Fin 32) (n : Fin 2), sum1Arr m c (ix2 (0 : Fin 1) (pos p n)) = S1 (argP m c) (argW m c) p n :=
    fun p n => by
      rw [h2, er, ew]
      exact Reindex.sum_rows_S1 _ _ p n (fun t b => r t b (pos p n)) (fun t b => hr t b (pos p n))
  have hS2 : ∀ (p : Fin 32) (n : Fin 2), sum2Arr m c (ix2 (0 : Fin 1) (pos p n)) = S2 (argP m c) (argW m c) p n :=
    fun p n => by
      rw [h3, er, ew]
      exact Reindex.sum_rows_S2 _ _ p n (fun t b => r t b (pos p n)) (fun t b => hr t b (pos p n))
  have e0 : (Hand.V3 m c main_v0 : S1048576x9.Idx → EReal)
      = shapeCast S1048576x9 (argP m c) shapeCasts_S16384x32x2x9_S1048576x9 :=
    (Entry.V3_rows m c).trans (Entry.V1_rows m c)
  have e1 : (Hand.V3 m c main_v1 : S9x64.Idx → EReal)
      = transpose S9x64 [1, 0] (argW m c) transposes_S64x9_S9x64_1_0 :=
    (Entry.V3_wt m c).trans (Entry.V1_wt m c)
  have e2 : (Hand.V3 m c main_v15 : S32x2.Idx → EReal) = scaleOf (sum1Arr m c) (sum2Arr m c) (argG m c) :=
    Entry.V3_scale m c
  have e3 : (Hand.V3 m c main_v19 : S32x2.Idx → EReal) = shiftOf (sum1Arr m c) (sum2Arr m c) (argG m c) (argB m c) :=
    Entry.V3_shift m c
  funext i
  obtain ⟨B, o, p, rfl⟩ : ∃ (B : Fin 16384) (o : Fin 64) (p : Fin 32), i = ix3 B o p := ⟨_, _, _, eq_ix3 i⟩
  refine (MainValue.arr4_apply (Hand.V3 m) c B o p).trans ?_
  rw [Spec.kernelG_apply, e0, e1, e2, e3]
  unfold Spec.kOut
  exact congrArg₂ (max : EReal → EReal → EReal)
    (act_kElt (argP m c) (argW m c) (argG m c) (argB m c) (sum1Arr m c) (sum2Arr m c) hS1 hS2 B o p 0)
    (act_kElt (argP m c) (argW m c) (argG m c) (argB m c) (sum1Arr m c) (sum2Arr m c) hS1 hS2 B o p 1)

end Cert.KernelIdeal.Value

end
-- ==== Proof.KIStatsPay.lean ====
/- The values the first TensorCore call's body stores, read at one index, at the ideal values.
   The body multiplies its block of 32768 rows (row b*64+j is the b-th of the block's 512 batch rows at position j) by the
   9 x 64 weights, and adds to its two running accumulators, position by position, the sum over the block's batch rows
   and over the 64 channels of the products, and of their squares. At the first point it clears the accumulators. -/
import proofs.«173164_j41257455845539_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.StatsValue

open Cert.KernelIdeal Cert.KernelIdeal.Gen
open Idealize.ShloMosaic Idealize.ShloMosaic.ValueIdx

/-! ## What the accumulators gain at a point -/

/-- The row of the body's 32768-row block that holds the block's batch row b at position j. -/
def rowS (b : Fin 512) (j : Fin 64) : Fin 32768 := ⟨b.val * 64 + j.val, by omega⟩

/-- The block's sum at position j: over its batch rows and the channels, of the rows' products with the weights. -/
def blockSum (v3 : Vec Ideal S32768x9 .f32) (v6 : Vec Ideal S9x64 .f32) (j : Fin 64) : EReal :=
  ∑ b : Fin 512, ∑ o : Fin 64, ∑ k : Fin 9, v3 (ix2 (rowS b j) k) * v6 (ix2 k o)

/-- The block's sum of squares at position j. -/
def blockSumSq (v3 : Vec Ideal S32768x9 .f32) (v6 : Vec Ideal S9x64 .f32) (j : Fin 64) : EReal :=
  ∑ b : Fin 512, ∑ o : Fin 64, (∑ k : Fin 9, v3 (ix2 (rowS b j) k) * v6 (ix2 k o)) * (∑ k : Fin 9, v3 (ix2 (rowS b j) k) * v6 (ix2 k o))

/-! ## The cleared accumulators -/

theorem pay1_zero (j : Fin 64) : k0_pay1 (F := Ideal) (ix2 (0 : Fin 1) j) = 0 := by
  unfold k0_pay1
  rw [shapeCast_self]
  exact Ideal.ofBits_zero_f32

theorem pay2_zero (j : Fin 64) : k0_pay2 (F := Ideal) (ix2 (0 : Fin 1) j) = 0 := by
  unfold k0_pay2
  rw [shapeCast_self]
  exact Ideal.ofBits_zero_f32

/-! ## The product with the weights -/

theorem dot_lhs0 (i : S32768x64.Idx) (q : dot_S32768x9_S9x64_S32768x64_1_0_0_1_n_n.contr.Idx) :
    (dot_S32768x9_S9x64_S32768x64_1_0_0_1_n_n.lhsIdx i q 0).val = (i 0).val := by
  unfold DotDims.lhsIdx
  rw [dif_neg (show ¬(0 : Fin S32768x9.rank) ∈ dot_S32768x9_S9x64_S32768x64_1_0_0_1_n_n.lhsBatch by decide), dif_pos (show (0 : Fin S32768x9.rank) ∈ dot_S32768x9_S9x64_S32768x64_1_0_0_1_n_n.lhsNonContracting by decide)]
  rfl
theorem dot_lhs1 (i : S32768x64.Idx) (q : dot_S32768x9_S9x64_S32768x64_1_0_0_1_n_n.contr.Idx) :
    (dot_S32768x9_S9x64_S32768x64_1_0_0_1_n_n.lhsIdx i q 1).val = (q ⟨0, by decide⟩).val :=
  dot_S32768x9_S9x64_S32768x64_1_0_0_1_n_n.lhsIdx_val_of_single rfl i q
theorem dot_rhs0 (i : S32768x64.Idx) (q : dot_S32768x9_S9x64_S32768x64_1_0_0_1_n_n.contr.Idx) :
    (dot_S32768x9_S9x64_S32768x64_1_0_0_1_n_n.rhsIdx i q 0).val = (q ⟨0, by decide⟩).val :=
  dot_S32768x9_S9x64_S32768x64_1_0_0_1_n_n.rhsIdx_val_of_single rfl i q
theorem dot_rhs1 (i : S32768x64.Idx) (q : dot_S32768x9_S9x64_S32768x64_1_0_0_1_n_n.contr.Idx) :
    (dot_S32768x9_S9x64_S32768x64_1_0_0_1_n_n.rhsIdx i q 1).val = (i 1).val := by
  unfold DotDims.rhsIdx
  rw [dif_neg (show ¬(1 : Fin S9x64.rank) ∈ dot_S32768x9_S9x64_S32768x64_1_0_0_1_n_n.rhsBatch by decide), dif_pos (show (1 : Fin S9x64.rank) ∈ dot_S32768x9_S9x64_S32768x64_1_0_0_1_n_n.rhsNonContracting by decide)]
  rfl

/-- The block product into a zero accumulator, read at (r, o): the sum over the 9 features of row r's entries times
    the weights' column o. -/
theorem matmul_row_apply (lhs : FVec Ideal S32768x9 .bf16) (rhs : FVec Ideal S9x64 .bf16) (r : Fin 32768) (o : Fin 64) :
    matmul dot_S32768x9_S9x64_S32768x64_1_0_0_1_n_n none lhs rhs (constant (F := Ideal) S32768x64 .f32 0x00000000#32) (ix2 r o)
      = ∑ k : Fin 9, lhs (ix2 r k) * rhs (ix2 k o) := by
  simp only [matmul]
  rw [Ideal.matmul_constant_zero_apply, ← Equiv.sum_comp (contrEquiv1 dot_S32768x9_S9x64_S32768x64_1_0_0_1_n_n 9 rfl rfl).symm]
  refine Finset.sum_congr rfl fun k _ => ?_
  have hk := contrEquiv1_symm_val dot_S32768x9_S9x64_S32768x64_1_0_0_1_n_n 9 rfl rfl k
  have el : dot_S32768x9_S9x64_S32768x64_1_0_0_1_n_n.lhsIdx (ix2 r o) ((contrEquiv1 dot_S32768x9_S9x64_S32768x64_1_0_0_1_n_n 9 rfl rfl).symm k) = ix2 r k := funext fun a => Fin.ext (by
    match a with
    | ⟨0, _⟩ => exact dot_lhs0 _ _
    | ⟨1, _⟩ => exact (dot_lhs1 _ _).trans hk)
  have er : dot_S32768x9_S9x64_S32768x64_1_0_0_1_n_n.rhsIdx (ix2 r o) ((contrEquiv1 dot_S32768x9_S9x64_S32768x64_1_0_0_1_n_n 9 rfl rfl).symm k) = ix2 k o := funext fun a => Fin.ext (by
    match a with
    | ⟨0, _⟩ => exact (dot_rhs0 _ _).trans hk
    | ⟨1, _⟩ => exact dot_rhs1 _ _)
  rw [el, er]

/-- The product regrouped as batch row, position, channel: entry (b, j, o) is row b*64+j, column o. -/
theorem regroup_apply {α : Type} (x : S32768x64.Idx → α) (h : S32768x64.ShapeCasts S512x64x64) (b : Fin 512) (j : Fin 64) (o : Fin 64) :
    shapeCast S512x64x64 x h (ix3 b j o) = x (ix2 (rowS b j) o) := by
  refine shapeCast_apply x h _ _ ?_
  rw [Shape.rowMajor_val_two, Shape.rowMajor_val_three]
  rfl

/-- The regrouped product at (b, j, o): the sum over the 9 features. -/
theorem pay3_apply (v3 : Vec Ideal S32768x9 .f32) (v6 : Vec Ideal S9x64 .f32) (b : Fin 512) (j : Fin 64) (o : Fin 64) :
    k0_pay3 (F := Ideal) v3 v6 (ix3 b j o) = ∑ k : Fin 9, v3 (ix2 (rowS b j) k) * v6 (ix2 k o) := by
  unfold k0_pay3
  rw [regroup_apply, matmul_row_apply]
  simp only [truncf_apply, shapeCast_self]

/-! ## The two sums: over the channels, then over the block's batch rows -/

/-- Over the result index (b, j), the source index with channel o on the reduced axis is (b, j, o). -/
theorem lift_chan (h : S512x64x64.Reduces [2] S512x64) (b : Fin 512) (j : Fin 64) (o : Fin 64) :
    h.lift (ix2 b j) o = ix3 b j o := by
  funext c
  apply Fin.ext
  show Shape.Reduces.liftVal h (ix2 b j) o.val c = (ix3 b j o c).val
  unfold Shape.Reduces.liftVal
  match c with
  | ⟨0, _⟩ => rfl
  | ⟨1, _⟩ => rfl
  | ⟨2, _⟩ => rfl

/-- Over the result index j, the source index with batch row b on the reduced axis is (b, j). -/
theorem lift_row (h : S512x64.Reduces [0] S64) (j : Fin 64) (b : Fin 512) :
    h.lift (ix1 j) b = ix2 b j := by
  funext c
  apply Fin.ext
  show Shape.Reduces.liftVal h (ix1 j) b.val c = (ix2 b j c).val
  unfold Shape.Reduces.liftVal
  match c with
  | ⟨0, _⟩ => rfl
  | ⟨1, _⟩ => rfl

/-- The sum over the channel axis from the zero word, read at (b, j). -/
theorem sum_chan_apply (src : FVec Ideal S512x64x64 .f32) (h : S512x64x64.Reduces [2] S512x64) (hφ : FKind.Formats .f32)
    (hacc : (0x00000000#32 : BitVec FTy.f32.bits) = FKind.add.neutral .f32 hφ) (b : Fin 512) (j : Fin 64) :
    multiReduction (F := Ideal) .add [2] S512x64 src 0x00000000#32 h hφ hacc (ix2 b j) = ∑ o : Fin 64, src (ix3 b j o) := by
  refine (Ideal.multiReduction_add_single src _ h hφ hacc (ix2 b j)).trans ?_
  show ∑ o : Fin 64, src (h.lift (ix2 b j) o) = _
  exact Finset.sum_congr rfl fun o _ => congrArg src (lift_chan h b j o)

/-- The sum over the batch-row axis from the zero word, read at j. -/
theorem sum_row_apply (src : FVec Ideal S512x64 .f32) (h : S512x64.Reduces [0] S64) (hφ : FKind.Formats .f32)
    (hacc : (0x00000000#32 : BitVec FTy.f32.bits) = FKind.add.neutral .f32 hφ) (j : Fin 64) :
    multiReduction (F := Ideal) .add [0] S64 src 0x00000000#32 h hφ hacc (ix1 j) = ∑ b : Fin 512, src (ix2 b j) := by
  refine (Ideal.multiReduction_add_single src _ h hφ hacc (ix1 j)).trans ?_
  show ∑ b : Fin 512, src (h.lift (ix1 j) b) = _
  exact Finset.sum_congr rfl fun b _ => congrArg src (lift_row h j b)

/-! ## The updated accumulators -/

/-- The first accumulator after the body, at position j: what it held plus the block's sum there. -/
theorem pay4_apply (v3 : Vec Ideal S32768x9 .f32) (v6 : Vec Ideal S9x64 .f32) (v18 : Vec Ideal S1x64 .f32) (j : Fin 64) :
    k0_pay4 (F := Ideal) v3 v6 v18 (ix2 (0 : Fin 1) j) = v18 (ix2 (0 : Fin 1) j) + blockSum v3 v6 j := by
  unfold k0_pay4
  rw [shapeCast_self]
  refine (addf_apply _ _ _).trans ?_
  refine congrArg (v18 (ix2 (0 : Fin 1) j) + ·) ?_
  refine (shapeCast_a_1a_apply _ _ (0 : Fin 1) j).trans ?_
  refine (sum_row_apply _ _ _ _ j).trans ?_
  unfold blockSum
  refine Finset.sum_congr rfl fun b _ => ?_
  refine (sum_chan_apply _ _ _ _ b j).trans ?_
  exact Finset.sum_congr rfl fun o _ => pay3_apply v3 v6 b j o

/-- The second accumulator after the body, at position j: what it held plus the block's sum of squares there. -/
theorem pay5_apply (v3 : Vec Ideal S32768x9 .f32) (v6 : Vec Ideal S9x64 .f32) (v23 : Vec Ideal S1x64 .f32) (j : Fin 64) :
    k0_pay5 (F := Ideal) v3 v6 v23 (ix2 (0 : Fin 1) j) = v23 (ix2 (0 : Fin 1) j) + blockSumSq v3 v6 j := by
  unfold k0_pay5
  rw [shapeCast_self]
  refine (addf_apply _ _ _).trans ?_
  refine congrArg (v23 (ix2 (0 : Fin 1) j) + ·) ?_
  refine (shapeCast_a_1a_apply _ _ (0 : Fin 1) j).trans ?_
  refine (sum_row_apply _ _ _ _ j).trans ?_
  unfold blockSumSq
  refine Finset.sum_congr rfl fun b _ => ?_
  refine (sum_chan_apply _ _ _ _ b j).trans ?_
  refine Finset.sum_congr rfl fun o _ => ?_
  refine (mulf_apply _ _ _).trans ?_
  rw [pay3_apply]

end Cert.KernelIdeal.StatsValue

end
-- ==== Proof.KIStatsValue.lean ====
/- Region 0 (the statistics pass) read as values: what its two output arrays hold after the region. Each case's
   found pieces are one covering store of a payload of the point's input blocks and of what the point before left in
   the scratch rows; by induction on the grid point the scratch rows hold the running per-position sums of the
   projected rows and of their squares; the last point copies them to the output windows, whose one block is the
   whole array. -/
import proofs.«173164_j41257455845539_2_alg».proof.Proof.KIRegion0
import proofs.«173164_j41257455845539_2_alg».proof.Proof.KIStatsPay
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx
open scoped BigOperators

namespace Cert.KernelIdeal.StatsValue

open Cert.KernelIdeal Cert.KernelIdeal.Gen Cert.KernelIdeal.Hand

/-! ## What each case's found pieces are, at any float instance -/

section Pieces
variable {F : FTy → Type} [FloatOps F]

theorem hz : (![0, 0] : Fin 2 → Nat) = fun _ => 0 := funext fun a => by fin_cases a <;> rfl

/-- The first point leaves in the first scratch row the block's sums added onto the cleared row. -/
theorem sout0_A_0_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) :
    sout0_A_0 c i arg1 harg1 arg2 harg2 arg3 harg3 arg4 harg4 arg5 harg5 arg6 harg6 hc0 hc1 x0 x1 = k0_pay4 x0 x1 (k0_pay1 (F := F)) := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  try sl_unfold_words
  rw [View.canon_cons_unit_zero (S := S1x64) hz, View.readCov_unit_zero (S := S1x64) _ hz]
  simp only [View.readAt_eq_ld, harg1.read_unread, harg2.read_unread, View.ld_unit_zero (S := S32768x9) hz, View.ld_unit_zero (S := S9x64) hz, View.ld_unit_zero (S := S1x64) hz]

/-- The first point leaves in the second scratch row the block's sums of squares added onto the cleared row. -/
theorem sout0_A_1_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond0_0 i) (hc1 : ¬cond0_1 i)
    (x0 : Vec F S32768x9 .f32) (x1 : Vec F S9x64 .f32) :
    sout0_A_1 c i arg1 harg1 arg2 harg2 arg3 harg3 arg4 harg4 arg5 harg5 arg6 harg6 hc0 hc1 x0 x1 = k0_pay5 x0 x1 (k0_pay2 (F := F)) := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  try sl_unfold_words
  rw [View.canon_cons_unit_zero (S := S1x64) hz, View.readCov_unit_zero (S := S1x64) _ hz]
  simp only [View.readAt_eq_ld, harg1.read_unread, harg2.read_unread, View.ld_unit_zero (S := S32768x9) hz, View.ld_unit_zero (S := S9x64) hz, View.ld_unit_zero (S := S1x64) hz]

/-- A middle point adds the block's sums onto what the first scratch row held. -/
theorem sout0_B_0_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) :
    sout0_B_0 c i arg1 harg1 arg2 harg2 arg3 harg3 arg4 harg4 arg5 harg5 arg6 harg6 hc0 hc1 x0 x1 xs0 xs1 = k0_pay4 x0 x1 xs0 := by
  unfold sout0_B_0
  rw [View.read_writes_eq_canon _ _ _ (scover0_B_0 c i arg1 harg1 arg2 harg2 arg3 harg3 arg4 harg4 arg5 harg5 arg6 harg6 hc0 hc1 x0 x1 xs0 xs1)]
  unfold kernelRun0_B
  dsimp only
  try sl_unfold_words
  rw [View.canon_unit_zero (S := S1x64) hz]
  simp only [View.readAt_eq_ld, harg1.read_unread, harg2.read_unread, harg5.read_unread, harg6.read_unread, View.ld_unit_zero (S := S32768x9) hz, View.ld_unit_zero (S := S9x64) hz, View.ld_unit_zero (S := S1x64) hz]

/-- A middle point adds the block's sums of squares onto what the second scratch row held. -/
theorem sout0_B_1_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : ¬cond0_1 i)
    (x0 : Vec F S32768x9 .f32) (x1 : Vec F S9x64 .f32) (xs0 : Vec F S1x64 .f32) (xs1 : Vec F S1x64 .f32) :
    sout0_B_1 c i arg1 harg1 arg2 harg2 arg3 harg3 arg4 harg4 arg5 harg5 arg6 harg6 hc0 hc1 x0 x1 xs0 xs1 = k0_pay5 x0 x1 xs1 := by
  unfold sout0_B_1
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  try sl_unfold_words
  rw [View.canon_unit_zero (S := S1x64) hz]
  simp only [View.readAt_eq_ld, harg1.read_unread, harg2.read_unread, harg5.read_unread, harg6.read_unread, View.ld_unit_zero (S := S32768x9) hz, View.ld_unit_zero (S := S9x64) hz, View.ld_unit_zero (S := S1x64) hz]

/-- The last point adds the block's sums onto what the first scratch row held, -/
theorem sout0_C_0_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) :
    sout0_C_0 c i arg1 harg1 arg2 harg2 arg3 harg3 arg4 harg4 arg5 harg5 arg6 harg6 hc0 hc1 x0 x1 xs0 xs1 = k0_pay4 x0 x1 xs0 := by
  unfold sout0_C_0
  rw [View.read_writes_eq_canon _ _ _ (scover0_C_0 c i arg1 harg1 arg2 harg2 arg3 harg3 arg4 harg4 arg5 harg5 arg6 harg6 hc0 hc1 x0 x1 xs0 xs1)]
  unfold kernelRun0_C
  dsimp only
  try sl_unfold_words
  rw [View.canon_unit_zero (S := S1x64) hz]
  simp only [View.readAt_eq_ld, harg1.read_unread, harg2.read_unread, harg5.read_unread, harg6.read_unread, View.ld_unit_zero (S := S32768x9) hz, View.ld_unit_zero (S := S9x64) hz, View.ld_unit_zero (S := S1x64) hz]

/-- and the block's sums of squares onto what the second held; -/
theorem sout0_C_1_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) :
    sout0_C_1 c i arg1 harg1 arg2 harg2 arg3 harg3 arg4 harg4 arg5 harg5 arg6 harg6 hc0 hc1 x0 x1 xs0 xs1 = k0_pay5 x0 x1 xs1 := by
  unfold sout0_C_1
  rw [View.read_writes_eq_canon _ _ _ (scover0_C_1 c i arg1 harg1 arg2 harg2 arg3 harg3 arg4 harg4 arg5 harg5 arg6 harg6 hc0 hc1 x0 x1 xs0 xs1)]
  unfold kernelRun0_C
  dsimp only
  try sl_unfold_words
  rw [View.canon_unit_zero (S := S1x64) hz]
  simp only [View.readAt_eq_ld, harg1.read_unread, harg2.read_unread, harg5.read_unread, harg6.read_unread, View.ld_unit_zero (S := S32768x9) hz, View.ld_unit_zero (S := S9x64) hz, View.ld_unit_zero (S := S1x64) hz]

/-- and copies the first row, as it then stands, to output window 2's buffer, -/
theorem out0_C_2_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) :
    out0_C_2 c i arg1 harg1 arg2 harg2 arg3 harg3 arg4 harg4 arg5 harg5 arg6 harg6 hc0 hc1 x0 x1 xs0 xs1 = k0_pay4 x0 x1 xs0 := by
  unfold out0_C_2
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  try sl_unfold_words
  rw [View.canon_unit_zero (S := S1x64) hz, View.readCov_unit_zero (S := S1x64) _ hz]
  simp only [View.readAt_eq_ld, harg1.read_unread, harg2.read_unread, harg5.read_unread, harg6.read_unread, View.ld_unit_zero (S := S32768x9) hz, View.ld_unit_zero (S := S9x64) hz, View.ld_unit_zero (S := S1x64) hz]

/-- and the second to output window 3's. -/
theorem out0_C_3_eq (c : Dev nD) (i : grid0.Coords) (arg1 : Memref sig .tc .vmem S32768x9 .f32) (harg1 : arg1.IsWhole) (arg2 : Memref sig .tc .vmem S9x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond0_0 i) (hc1 : cond0_1 i)
    (x0 : Vec F S32768x9 .f32) (x1 : Vec F S9x64 .f32) (xs0 : Vec F S1x64 .f32) (xs1 : Vec F S1x64 .f32) :
    out0_C_3 c i arg1 harg1 arg2 harg2 arg3 harg3 arg4 harg4 arg5 harg5 arg6 harg6 hc0 hc1 x0 x1 xs0 xs1 = k0_pay5 x0 x1 xs1 := by
  unfold out0_C_3
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  try sl_unfold_words
  rw [View.canon_unit_zero (S := S1x64) hz, View.readCov_unit_zero (S := S1x64) _ hz]
  simp only [View.readAt_eq_ld, harg1.read_unread, harg2.read_unread, harg5.read_unread, harg6.read_unread, View.ld_unit_zero (S := S32768x9) hz, View.ld_unit_zero (S := S9x64) hz, View.ld_unit_zero (S := S1x64) hz]

end Pieces

/-! ## The scratch rows point by point, at any float instance -/

section Recursion
variable {F : FTy → Type} [FloatOps F]
variable (V : (c : Dev nD) → (b : Ref sig .tc) → Buf (Elt F) ((c : Thread nD τ).loc b))

/-- After the first point the first scratch row holds the first block's sums added onto the cleared row, -/
theorem s0_zero (c : Dev nD) (hn : 0 < cfg0.N) :
    (outsAt0 V c 0 hn).2.2.1 = k0_pay4 (iblk0 V c 0 ⟨0, hn⟩) (iblk0 V c 1 ⟨0, hn⟩) (k0_pay1 (F := F)) := by
  rw [outsAt0_A V c ⟨0, hn⟩ rfl (by dsimp only; omega)]; dsimp only; exact sout0_A_0_eq ..
/-- and the second the first block's sums of squares. -/
theorem s1_zero (c : Dev nD) (hn : 0 < cfg0.N) :
    (outsAt0 V c 0 hn).2.2.2 = k0_pay5 (iblk0 V c 0 ⟨0, hn⟩) (iblk0 V c 1 ⟨0, hn⟩) (k0_pay2 (F := F)) := by
  rw [outsAt0_A V c ⟨0, hn⟩ rfl (by dsimp only; omega)]; dsimp only; exact sout0_A_1_eq ..

/-- After a later point each scratch row holds that point's block sums added onto what the point before left. -/
theorem s0_succ (c : Dev nD) (n : ℕ) (hn : n + 1 < cfg0.N) :
    (outsAt0 V c (n + 1) hn).2.2.1 = k0_pay4 (iblk0 V c 0 ⟨n + 1, hn⟩) (iblk0 V c 1 ⟨n + 1, hn⟩) (outsAt0 V c n (Nat.lt_of_succ_lt hn)).2.2.1 := by
  have hN : n + 1 < 32 := lt_of_lt_of_eq hn (show cfg0.N = 32 from N_0)
  have h0 : ¬(⟨n + 1, hn⟩ : Fin cfg0.N).val % 32 = 0 := by dsimp only; omega
  by_cases h1 : (⟨n + 1, hn⟩ : Fin cfg0.N).val % 32 = 31
  · rw [outsAt0_C V c ⟨n + 1, hn⟩ h0 h1]; dsimp only; exact sout0_C_0_eq ..
  · rw [outsAt0_B V c ⟨n + 1, hn⟩ h0 h1]; dsimp only; exact sout0_B_0_eq ..
theorem s1_succ (c : Dev nD) (n : ℕ) (hn : n + 1 < cfg0.N) :
    (outsAt0 V c (n + 1) hn).2.2.2 = k0_pay5 (iblk0 V c 0 ⟨n + 1, hn⟩) (iblk0 V c 1 ⟨n + 1, hn⟩) (outsAt0 V c n (Nat.lt_of_succ_lt hn)).2.2.2 := by
  have hN : n + 1 < 32 := lt_of_lt_of_eq hn (show cfg0.N = 32 from N_0)
  have h0 : ¬(⟨n + 1, hn⟩ : Fin cfg0.N).val % 32 = 0 := by dsimp only; omega
  by_cases h1 : (⟨n + 1, hn⟩ : Fin cfg0.N).val % 32 = 31
  · rw [outsAt0_C V c ⟨n + 1, hn⟩ h0 h1]; dsimp only; exact sout0_C_1_eq ..
  · rw [outsAt0_B V c ⟨n + 1, hn⟩ h0 h1]; dsimp only; exact sout0_B_1_eq ..

/-- The last grid point. -/
abbrev t31 : Fin cfg0.N := ⟨31, by rw [show cfg0.N = 32 from N_0]; decide⟩

/-- At the last point each output window's buffer is left holding what the matching scratch row then holds. -/
theorem o2_last (c : Dev nD) : (outsAt0 V c t31.val t31.isLt).1 = (outsAt0 V c t31.val t31.isLt).2.2.1 := by
  rw [outsAt0_C V c t31 (by decide) (by decide)]; dsimp only
  exact (out0_C_2_eq ..).trans (sout0_C_0_eq ..).symm
theorem o3_last (c : Dev nD) : (outsAt0 V c t31.val t31.isLt).2.1 = (outsAt0 V c t31.val t31.isLt).2.2.2 := by
  rw [outsAt0_C V c t31 (by decide) (by decide)]; dsimp only
  exact (out0_C_3_eq ..).trans (sout0_C_1_eq ..).symm

/-! ## The write-back at the last point: each output window's one block is its whole array -/

/-- What output array 2 ends holding: the first scratch row after the last point. -/
abbrev res2 (c : Dev nD) : Buf (Elt F) ((c : Thread nD τ).loc main_v2_0) := (outsAt0 V c t31.val t31.isLt).2.2.1
/-- What output array 3 ends holding: the second scratch row after the last point. -/
abbrev res3 (c : Dev nD) : Buf (Elt F) ((c : Thread nD τ).loc main_v2_1) := (outsAt0 V c t31.val t31.isLt).2.2.2

/-- The one write-back of window 2, at the last point, writes `res2`: block (0, 0) of the [1,64] array read through
    zero offsets is the array. -/
theorem flushed2_eq (c : Dev nD) (t : Fin cfg0.N) (hf : (cfg0.win 2).flush t = true) :
    (dat0 V c).flushed 2 t = ((cfg0.win 2).blk t).view.read (Elt F) (res2 V c) := by
  have hN : cfg0.N = 32 := N_0
  have h31 : t.val = 31 := by have := (flush0_2 t).mp hf; have := t.isLt; omega
  obtain rfl : t = t31 := Fin.ext h31
  show (cfg0.win 2).cut (grid0.coords t31) ((dat0 V c).after 2 t31) = _
  rw [after0_2, o2_last]
  have hz' : (fun a => win0_2.index t31 a * main_v2_0.ty.shape.size a) = fun _ => 0 := funext fun a => by fin_cases a <;> decide
  exact (Memref.read_access_unit_zero (Elt F) main_v2_0 hz' (fun a => by rw [congrFun hz' a]; simp) (res2 V c)).symm
theorem flushed3_eq (c : Dev nD) (t : Fin cfg0.N) (hf : (cfg0.win 3).flush t = true) :
    (dat0 V c).flushed 3 t = ((cfg0.win 3).blk t).view.read (Elt F) (res3 V c) := by
  have hN : cfg0.N = 32 := N_0
  have h31 : t.val = 31 := by have := (flush0_3 t).mp hf; have := t.isLt; omega
  obtain rfl : t = t31 := Fin.ext h31
  show (cfg0.win 3).cut (grid0.coords t31) ((dat0 V c).after 3 t31) = _
  rw [after0_3, o3_last]
  have hz' : (fun a => win0_3.index t31 a * main_v2_1.ty.shape.size a) = fun _ => 0 := funext fun a => by fin_cases a <;> decide
  exact (Memref.read_access_unit_zero (Elt F) main_v2_1 hz' (fun a => by rw [congrFun hz' a]; simp) (res3 V c)).symm

/-- So output array 2 ends holding the first scratch row after the last point (the last point's block covers it), -/
theorem final2 (c : Dev nD) : (dat0 V c).arrAt 2 cfg0.N = res2 V c :=
  (dat0 V c).arrAt_eq_of_cover 2 (res2 V c) (flushed2_eq V c) fun i =>
    ⟨t31, (flush0_2 t31).mpr rfl, by
      show i ∈ ((View.whole main_v2_0).slice (win0_2.rect t31)).set
      rw [View.set_slice_whole, Rect.mem_set_unit]
      intro a
      have h0 : (i 0 : Nat) < 1 := (i 0).isLt
      have h1 : (i 1 : Nat) < 64 := (i 1).isLt
      match a with
      | ⟨0, _⟩ => show win0_2.index t31 0 * win0_2.size 0 ≤ (i 0 : Nat) ∧ (i 0 : Nat) < win0_2.index t31 0 * win0_2.size 0 + win0_2.xsize (grid0.coords t31) 0
                  rw [show win0_2.index t31 0 * win0_2.size 0 = 0 from by decide +kernel, show win0_2.xsize (grid0.coords t31) 0 = 1 from by decide +kernel]; omega
      | ⟨1, _⟩ => show win0_2.index t31 1 * win0_2.size 1 ≤ (i 1 : Nat) ∧ (i 1 : Nat) < win0_2.index t31 1 * win0_2.size 1 + win0_2.xsize (grid0.coords t31) 1
                  rw [show win0_2.index t31 1 * win0_2.size 1 = 0 from by decide +kernel, show win0_2.xsize (grid0.coords t31) 1 = 64 from by decide +kernel]; omega⟩
/-- and output array 3 the second. -/
theorem final3 (c : Dev nD) : (dat0 V c).arrAt 3 cfg0.N = res3 V c :=
  (dat0 V c).arrAt_eq_of_cover 3 (res3 V c) (flushed3_eq V c) fun i =>
    ⟨t31, (flush0_3 t31).mpr rfl, by
      show i ∈ ((View.whole main_v2_1).slice (win0_3.rect t31)).set
      rw [View.set_slice_whole, Rect.mem_set_unit]
      intro a
      have h0 : (i 0 : Nat) < 1 := (i 0).isLt
      have h1 : (i 1 : Nat) < 64 := (i 1).isLt
      match a with
      | ⟨0, _⟩ => show win0_3.index t31 0 * win0_3.size 0 ≤ (i 0 : Nat) ∧ (i 0 : Nat) < win0_3.index t31 0 * win0_3.size 0 + win0_3.xsize (grid0.coords t31) 0
                  rw [show win0_3.index t31 0 * win0_3.size 0 = 0 from by decide +kernel, show win0_3.xsize (grid0.coords t31) 0 = 1 from by decide +kernel]; omega
      | ⟨1, _⟩ => show win0_3.index t31 1 * win0_3.size 1 ≤ (i 1 : Nat) ∧ (i 1 : Nat) < win0_3.index t31 1 * win0_3.size 1 + win0_3.xsize (grid0.coords t31) 1
                  rw [show win0_3.index t31 1 * win0_3.size 1 = 0 from by decide +kernel, show win0_3.xsize (grid0.coords t31) 1 = 64 from by decide +kernel]; omega⟩

end Recursion

/-! ## The values at the ideal instance -/

section AtIdeal
variable (V : (c : Dev nD) → (b : Ref sig .tc) → Buf (Elt Ideal) ((c : Thread nD τ).loc b))

/-- The re-laid input (one row per pillar, point and position; nine features) and the weights, as the region finds
    them, typed as functions into the extended reals. -/
abbrev rowsOf (c : Dev nD) : S1048576x9.Idx → EReal := V c main_v0
abbrev wtOf (c : Dev nD) : S9x64.Idx → EReal := V c main_v1

/-- Row `(t·512 + b)·64 + j` of the re-laid input: block `t`, group `b`, position `j`. -/
def rowT (t : Fin 32) (b : Fin 512) (j : Fin 64) : Fin 1048576 :=
  ⟨(t.val * 512 + b.val) * 64 + j.val, by have := t.isLt; have := b.isLt; have := j.isLt; omega⟩

/-- The block index of each input window at each point: the row block moves with the point, the weights stay. -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = 0 ∧ win0_1.index t 1 = 0 :=
  (by decide +kernel : ∀ t : Fin grid0.N, win0_1.index t 0 = 0 ∧ win0_1.index t 1 = 0)

/-- Window 0's block at point `t` is rows `32768·t … 32768·t + 32767` of the re-laid input. -/
theorem iblk0_0_apply (c : Dev nD) (t : Fin cfg0.N) (r : Fin 32768) (k : Fin 9) (R : Fin 1048576) (hR : R.val = t.val * 32768 + r.val) :
    (iblk0 V c 0 t : Vec Ideal S32768x9 .f32) (ix2 r k) = rowsOf V c (ix2 R k) := by
  unfold iblk0 rowsOf
  rw [View.read_apply]
  show V c main_v0 _ = V c main_v0 _
  congr 1
  funext a
  apply Fin.ext
  match a with
  | ⟨0, _⟩ => show win0_0.index t 0 * 32768 + 1 * r.val = R.val; rw [(index0_0 t).1, hR]; omega
  | ⟨1, _⟩ => show win0_0.index t 1 * 9 + 1 * k.val = k.val; rw [(index0_0 t).2]; omega

/-- Window 1's block at every point is the whole weight matrix. -/
theorem iblk0_1_apply (c : Dev nD) (t : Fin cfg0.N) (k : Fin 9) (o : Fin 64) :
    (iblk0 V c 1 t : Vec Ideal S9x64 .f32) (ix2 k o) = wtOf V c (ix2 k o) := by
  unfold iblk0 wtOf
  rw [View.read_apply]
  show V c main_v1 _ = V c main_v1 _
  congr 1
  funext a
  apply Fin.ext
  match a with
  | ⟨0, _⟩ => show win0_1.index t 0 * 9 + 1 * k.val = k.val; rw [(index0_1 t).1]; omega
  | ⟨1, _⟩ => show win0_1.index t 1 * 64 + 1 * o.val = o.val; rw [(index0_1 t).2]; omega

/-- The projected entry: row `R` of the re-laid input against column `o` of the weights. -/
abbrev proj (c : Dev nD) (R : Fin 1048576) (o : Fin 64) : EReal :=
  ∑ k : Fin 9, rowsOf V c (ix2 R k) * wtOf V c (ix2 k o)

/-- Point `n`'s contribution to position `j`'s sum (nothing beyond the grid), -/
def g1 (c : Dev nD) (n : ℕ) (j : Fin 64) : EReal :=
  if h : n < 32 then ∑ b : Fin 512, ∑ o : Fin 64, proj V c (rowT ⟨n, h⟩ b j) o else 0
/-- and to its sum of squares. -/
def g2 (c : Dev nD) (n : ℕ) (j : Fin 64) : EReal :=
  if h : n < 32 then ∑ b : Fin 512, ∑ o : Fin 64, proj V c (rowT ⟨n, h⟩ b j) o * proj V c (rowT ⟨n, h⟩ b j) o else 0

/-- A block's sums from its projected entries, however those are named. -/
theorem blockSum_of (v3 : Vec Ideal S32768x9 .f32) (v6 : Vec Ideal S9x64 .f32) (j : Fin 64) (f : Fin 512 → Fin 64 → EReal)
    (h : ∀ b o, (∑ k : Fin 9, v3 (ix2 (rowS b j) k) * v6 (ix2 k o)) = f b o) :
    blockSum v3 v6 j = ∑ b : Fin 512, ∑ o : Fin 64, f b o := by
  unfold blockSum
  exact Finset.sum_congr rfl fun b _ => Finset.sum_congr rfl fun o _ => h b o
theorem blockSumSq_of (v3 : Vec Ideal S32768x9 .f32) (v6 : Vec Ideal S9x64 .f32) (j : Fin 64) (f : Fin 512 → Fin 64 → EReal)
    (h : ∀ b o, (∑ k : Fin 9, v3 (ix2 (rowS b j) k) * v6 (ix2 k o)) = f b o) :
    blockSumSq v3 v6 j = ∑ b : Fin 512, ∑ o : Fin 64, f b o * f b o := by
  unfold blockSumSq
  exact Finset.sum_congr rfl fun b _ => Finset.sum_congr rfl fun o _ => by rw [h b o]

/-- The projected entries of point `n`'s blocks are those of the arrays at the block's rows. -/
theorem proj_of (c : Dev nD) (n : ℕ) (hn : n < cfg0.N) (hN : n < 32) (j : Fin 64) (b : Fin 512) (o : Fin 64)
    (v3 : Vec Ideal S32768x9 .f32) (v6 : Vec Ideal S9x64 .f32) (h3 : v3 = iblk0 V c 0 ⟨n, hn⟩) (h6 : v6 = iblk0 V c 1 ⟨n, hn⟩) :
    (∑ k : Fin 9, v3 (ix2 (rowS b j) k) * v6 (ix2 k o)) = proj V c (rowT ⟨n, hN⟩ b j) o := by
  subst h3 h6
  refine Finset.sum_congr rfl fun k _ => ?_
  rw [iblk0_0_apply V c ⟨n, hn⟩ (rowS b j) k (rowT ⟨n, hN⟩ b j) (by show (n * 512 + b.val) * 64 + j.val = n * 32768 + (b.val * 64 + j.val); omega), iblk0_1_apply]

/-- A point's block sums, read off the arrays. -/
theorem blockSum_iblk (c : Dev nD) (n : ℕ) (hn : n < cfg0.N) (j : Fin 64) :
    blockSum (iblk0 V c 0 ⟨n, hn⟩) (iblk0 V c 1 ⟨n, hn⟩) j = g1 V c n j := by
  have hN : n < 32 := lt_of_lt_of_eq hn (show cfg0.N = 32 from N_0)
  unfold g1
  rw [dif_pos hN]
  exact blockSum_of _ _ j _ fun b o => proj_of V c n hn hN j b o _ _ rfl rfl
theorem blockSumSq_iblk (c : Dev nD) (n : ℕ) (hn : n < cfg0.N) (j : Fin 64) :
    blockSumSq (iblk0 V c 0 ⟨n, hn⟩) (iblk0 V c 1 ⟨n, hn⟩) j = g2 V c n j := by
  have hN : n < 32 := lt_of_lt_of_eq hn (show cfg0.N = 32 from N_0)
  unfold g2
  rw [dif_pos hN]
  exact blockSumSq_of _ _ j _ fun b o => proj_of V c n hn hN j b o _ _ rfl rfl

/-- THE RUNNING SUMS. After point `n` the first scratch row holds, at position `j`, the contributions of points
    `0 … n` — by induction on the point: the first point adds onto the cleared row, a later one onto what the point
    before left. -/
theorem s0_apply (c : Dev nD) : ∀ (n : ℕ) (hn : n < cfg0.N) (j : Fin 64),
    ((outsAt0 V c n hn).2.2.1 : Vec Ideal S1x64 .f32) (ix2 (0 : Fin 1) j) = ∑ t ∈ Finset.range (n + 1), g1 V c t j
  | 0, hn, j => by
    rw [s0_zero, pay4_apply, pay1_zero, zero_add, blockSum_iblk, Finset.sum_range_one]
  | n + 1, hn, j => by
    rw [s0_succ, pay4_apply, s0_apply c n _ j, blockSum_iblk, Finset.sum_range_succ _ (n + 1)]
/-- The second row likewise holds the running sums of squares. -/
theorem s1_apply (c : Dev nD) : ∀ (n : ℕ) (hn : n < cfg0.N) (j : Fin 64),
    ((outsAt0 V c n hn).2.2.2 : Vec Ideal S1x64 .f32) (ix2 (0 : Fin 1) j) = ∑ t ∈ Finset.range (n + 1), g2 V c t j
  | 0, hn, j => by
    rw [s1_zero, pay5_apply, pay2_zero, zero_add, blockSumSq_iblk, Finset.sum_range_one]
  | n + 1, hn, j => by
    rw [s1_succ, pay5_apply, s1_apply c n _ j, blockSumSq_iblk, Finset.sum_range_succ _ (n + 1)]

/-- WHAT REGION 0 LEAVES in its first output array: at position `j`, the sum over all rows of that position and all
    output columns of the projected entries, in the grid's order. -/
theorem arr2_apply (c : Dev nD) (j : Fin 64) :
    @Eq EReal ((Cert.KernelIdeal.Hand.dat0 (F := Ideal) V c).arrAt 2 cfg0.N (ix2 (0 : Fin 1) j))
      (∑ t : Fin 32, ∑ b : Fin 512, ∑ o : Fin 64, ∑ k : Fin 9, rowsOf V c (ix2 (rowT t b j) k) * wtOf V c (ix2 k o)) := by
  rw [final2]
  show ((outsAt0 V c 31 t31.isLt).2.2.1 : Vec Ideal S1x64 .f32) (ix2 (0 : Fin 1) j) = _
  rw [s0_apply V c 31 t31.isLt j, Finset.sum_range]
  refine Finset.sum_congr rfl fun t _ => ?_
  unfold g1
  rw [dif_pos t.isLt]

/-- … and in its second: the same sum of the squared projected entries. -/
theorem arr3_apply (c : Dev nD) (j : Fin 64) :
    @Eq EReal ((Cert.KernelIdeal.Hand.dat0 (F := Ideal) V c).arrAt 3 cfg0.N (ix2 (0 : Fin 1) j))
      (∑ t : Fin 32, ∑ b : Fin 512, ∑ o : Fin 64,
          (∑ k : Fin 9, rowsOf V c (ix2 (rowT t b j) k) * wtOf V c (ix2 k o))
            * (∑ k : Fin 9, rowsOf V c (ix2 (rowT t b j) k) * wtOf V c (ix2 k o))) := by
  rw [final3]
  show ((outsAt0 V c 31 t31.isLt).2.2.2 : Vec Ideal S1x64 .f32) (ix2 (0 : Fin 1) j) = _
  rw [s1_apply V c 31 t31.isLt j, Finset.sum_range]
  refine Finset.sum_congr rfl fun t _ => ?_
  unfold g2
  rw [dif_pos t.isLt]

end AtIdeal

end Cert.KernelIdeal.StatsValue

end
-- ==== Proof.KIKernelValue.lean ====
import proofs.«173164_j41257455845539_2_alg».proof.Proof.KIValue
import proofs.«173164_j41257455845539_2_alg».proof.Proof.KIStatsValue

/-!
The kernel's result array, over the extended reals, is the folded form of the specification at the arguments as
launched: the combination of the second region's blocks, the two host stretches and the re-indexed sums, with the
first region's two accumulated rows as the block-by-block sums of the linear layer and of its squares.
-/

noncomputable section

namespace Cert.KernelIdeal.Value

open Cert.KernelIdeal Cert.KernelIdeal.Gen
open Idealize.ShloMosaic Idealize.ShloMosaic.TcCoe Idealize.SL.Sem

theorem kernel_value (m : (ℓ : Loc nD τ sig) → Buf (Elt Ideal) ℓ) (c : Dev nD) :
    (Cert.KernelIdeal.Hand.dat1 (F := Ideal) (Cert.KernelIdeal.Hand.V3 m) c).arrAt 4 cfg1.N
      = Cert.Spec.kernelG (m ((c : Thread nD τ).loc main_arg0)) (m ((c : Thread nD τ).loc main_arg2))
          (m ((c : Thread nD τ).loc main_arg3)) (m ((c : Thread nD τ).loc main_arg4)) :=
  kernel_value_of m c Cert.KernelIdeal.StatsValue.rowT (fun _ _ _ => rfl)
    (fun j => Cert.KernelIdeal.StatsValue.arr2_apply (Cert.KernelIdeal.Hand.V1 m) c j)
    (fun j => Cert.KernelIdeal.StatsValue.arr3_apply (Cert.KernelIdeal.Hand.V1 m) c j)

end Cert.KernelIdeal.Value

end
-- ==== Proof.RefIsSpec.lean ====
import proofs.«173164_j41257455845539_2_alg».proof.Proof.Spec
import proofs.«173164_j41257455845539_2_alg».proof.Proof.Gen.ReferenceIdeal.Read

/-!
# The reference program computes the centred form of the specification

Each stage of the reference is read at the indices the next stage needs: the product at (row b·64+o, position 2p+n)
is the linear layer x(b,p,n,o); the two sums over the 2^20 rows are the double sums over (b, o); the statistics at
a position are the centred form's; the last stage is the larger of the two points.
-/

noncomputable section

namespace Cert.ReferenceIdeal.RefValue

open Cert.ReferenceIdeal Cert.ReferenceIdeal.Gen Cert.ReferenceIdeal.Read Idealize.ShloMosaic Idealize.ShloMosaic.ValueIdx Cert.Spec
open scoped BigOperators

variable (a0 : (⟨S16384x32x2x9, .f32⟩ : BufTy).Contents (Elt Ideal)) (a2 : (⟨S64x9, .f32⟩ : BufTy).Contents (Elt Ideal))
  (a3 a4 : (⟨S64, .f32⟩ : BufTy).Contents (Elt Ideal))

/-- The row b·64 + o among the 2^20 rows (b, o). -/
def row (b : Fin 16384) (o : Fin 64) : Fin 1048576 := ⟨b.val * 64 + o.val, by omega⟩

/-- A sum over the 2^20 rows is the double sum over (b, o). -/
theorem sum_rows {M : Type*} [AddCommMonoid M] (f : Fin 1048576 → M) :
    ∑ k, f k = ∑ b : Fin 16384, ∑ o : Fin 64, f (row b o) := by
  rw [← Fintype.sum_prod_type' (fun b o => f (row b o))]
  exact (Fintype.sum_equiv (finProdFinEquiv (m := 16384) (n := 64)) (fun q => f (row q.1 q.2)) f
    (fun q => congrArg f (Fin.ext (by show q.1.val * 64 + q.2.val = q.2.val + 64 * q.1.val; omega)))).symm

/-- The product read at a row and a position is the linear layer. -/
theorem v2_apply (b : Fin 16384) (o : Fin 64) (pp : Fin 32) (n : Fin 2) :
    val_main_v2 (F := Ideal) a0 a2 (ix2 (row b o) (pos pp n)) = lin a0 a2 b pp n o := by
  rw [val_main_v2_apply, val_main_v1_apply, val_main_v0_apply]
  unfold lin
  refine Finset.sum_congr rfl fun c _ => ?_
  have hb := b.isLt; have ho := o.isLt; have hp := pp.isLt; have hn := n.isLt
  have el : lidx_main_v0 (idx_main_v1 (idx_main_v2 (ix2 (row b o) (pos pp n)))) c = ix4 b pp n c := by
    funext a
    match a with
    | ⟨0, _⟩ => exact Fin.ext (by show ((b.val * 64 + o.val) * 64 + (2 * pp.val + n.val)) / 4096 = b.val; omega)
    | ⟨1, _⟩ => exact Fin.ext (by show ((b.val * 64 + o.val) * 64 + (2 * pp.val + n.val)) / 2 % 32 = pp.val; omega)
    | ⟨2, _⟩ => exact Fin.ext (by show ((b.val * 64 + o.val) * 64 + (2 * pp.val + n.val)) % 2 = n.val; omega)
    | ⟨3, _⟩ => rfl
  have er : ridx_main_v0 (idx_main_v1 (idx_main_v2 (ix2 (row b o) (pos pp n)))) c = ix2 o c := by
    funext a
    match a with
    | ⟨0, _⟩ => exact Fin.ext (by show ((b.val * 64 + o.val) * 64 + (2 * pp.val + n.val)) / 64 % 64 = o.val; omega)
    | ⟨1, _⟩ => rfl
  rw [el, er]

/-- The first sum at a position is S1. -/
theorem v3_apply (pp : Fin 32) (n : Fin 2) : val_main_v3 (F := Ideal) a0 a2 (ix1 (pos pp n)) = S1 a0 a2 pp n := by
  rw [val_main_v3_apply, val_main_cst_apply, Ideal.ofBits_def, Ideal.ofBits_zero_f32, zero_add, sum_rows]
  unfold S1
  refine Finset.sum_congr rfl fun b _ => Finset.sum_congr rfl fun o _ => ?_
  have e : idx_main_v3 (ix1 (pos pp n)) (row b o) = ix2 (row b o) (pos pp n) := by
    funext a
    match a with
    | ⟨0, _⟩ => rfl
    | ⟨1, _⟩ => rfl
  rw [e, v2_apply]

/-- The mean at a position. -/
theorem v5_apply (pp : Fin 32) (n : Fin 2) : val_main_v5 (F := Ideal) a0 a2 (ix1 (pos pp n)) = rMean a0 a2 pp n := by
  rw [val_main_v5_apply, v3_apply, val_main_v4_apply, val_main_cst_0_apply]
  rfl

/-- The centred value at a row and a position (the copy the variance squares). -/
theorem v8_apply (b : Fin 16384) (o : Fin 64) (pp : Fin 32) (n : Fin 2) :
    val_main_v8 (F := Ideal) a0 a2 (ix2 (row b o) (pos pp n)) = lin a0 a2 b pp n o - rMean a0 a2 pp n := by
  have e : idx_main_v6 (idx_main_v7 (ix2 (row b o) (pos pp n))) = ix1 (pos pp n) := by
    funext a
    match a with
    | ⟨0, _⟩ => rfl
  rw [val_main_v8_apply, v2_apply, val_main_v7_apply, val_main_v6_apply, e, v5_apply]
  rfl

/-- The centred value at a row and a position (the copy the output scales). -/
theorem v15_apply (b : Fin 16384) (o : Fin 64) (pp : Fin 32) (n : Fin 2) :
    val_main_v15 (F := Ideal) a0 a2 (ix2 (row b o) (pos pp n)) = lin a0 a2 b pp n o - rMean a0 a2 pp n := by
  have e : idx_main_v13 (idx_main_v14 (ix2 (row b o) (pos pp n))) = ix1 (pos pp n) := by
    funext a
    match a with
    | ⟨0, _⟩ => rfl
  rw [val_main_v15_apply, v2_apply, val_main_v14_apply, val_main_v13_apply, e, v5_apply]
  rfl

/-- The sum of squares of the centred values at a position. -/
theorem v10_apply (pp : Fin 32) (n : Fin 2) : val_main_v10 (F := Ideal) a0 a2 (ix1 (pos pp n))
    = ∑ b : Fin 16384, ∑ o : Fin 64, (lin a0 a2 b pp n o - rMean a0 a2 pp n) * (lin a0 a2 b pp n o - rMean a0 a2 pp n) := by
  rw [val_main_v10_apply, val_main_cst_1_apply, Ideal.ofBits_def, Ideal.ofBits_zero_f32, zero_add, sum_rows]
  refine Finset.sum_congr rfl fun b _ => Finset.sum_congr rfl fun o _ => ?_
  have e : idx_main_v10 (ix1 (pos pp n)) (row b o) = ix2 (row b o) (pos pp n) := by
    funext a
    match a with
    | ⟨0, _⟩ => rfl
    | ⟨1, _⟩ => rfl
  rw [e, val_main_v9_apply, v8_apply]
  rfl

/-- The variance at a position. -/
theorem v12_apply (pp : Fin 32) (n : Fin 2) : val_main_v12 (F := Ideal) a0 a2 (ix1 (pos pp n)) = rVar a0 a2 pp n := by
  rw [val_main_v12_apply, v10_apply, val_main_v11_apply, val_main_cst_2_apply]
  rfl

/-- The inverse standard deviation at a position. -/
theorem v18_apply (pp : Fin 32) (n : Fin 2) : val_main_v18 (F := Ideal) a0 a2 (ix1 (pos pp n)) = rInv a0 a2 pp n := by
  rw [val_main_v18_apply, val_main_v17_apply, v12_apply, val_main_v16_apply, val_main_cst_3_apply]
  rfl

/-- The scaled, shifted and clamped value at a row and a position is the centred form's element. -/
theorem v28_apply (b : Fin 16384) (o : Fin 64) (pp : Fin 32) (n : Fin 2) :
    val_main_v28 (F := Ideal) a0 a2 a3 a4 (ix2 (row b o) (pos pp n)) = rElt a0 a2 a3 a4 b pp n o := by
  have e19 : idx_main_v19 (idx_main_v20 (ix2 (row b o) (pos pp n))) = ix1 (pos pp n) := by
    funext a
    match a with
    | ⟨0, _⟩ => rfl
  have e22 : idx_main_v22 (idx_main_v23 (ix2 (row b o) (pos pp n))) = ix1 (pos pp n) := by
    funext a
    match a with
    | ⟨0, _⟩ => rfl
  have e25 : idx_main_v25 (idx_main_v26 (ix2 (row b o) (pos pp n))) = ix1 (pos pp n) := by
    funext a
    match a with
    | ⟨0, _⟩ => rfl
  rw [val_main_v28_apply, val_main_v27_apply, val_main_v24_apply, val_main_v21_apply, v15_apply,
    val_main_v20_apply, val_main_v19_apply, e19, v18_apply, val_main_v23_apply, val_main_v22_apply, e22,
    val_main_v26_apply, val_main_v25_apply, e25, val_main_call0_v0_apply, val_main_call0_cst_apply,
    Ideal.ofBits_def, Ideal.ofBits_zero_f32]
  rfl

/-- The same after the rows are split back into (b, o) and the positions into (p, n). -/
theorem v29_apply (b : Fin 16384) (o : Fin 64) (pp : Fin 32) (n : Fin 2) :
    val_main_v29 (F := Ideal) a0 a2 a3 a4 (ix4 b o pp n) = rElt a0 a2 a3 a4 b pp n o := by
  have hb := b.isLt; have ho := o.isLt; have hp := pp.isLt; have hn := n.isLt
  have e : idx_main_v29 (ix4 b o pp n) = ix2 (row b o) (pos pp n) := by
    funext a
    match a with
    | ⟨0, _⟩ => exact Fin.ext (by
        show (((b.val * 64 + o.val) * 32 + pp.val) * 2 + n.val) / 64 = b.val * 64 + o.val; omega)
    | ⟨1, _⟩ => exact Fin.ext (by
        show (((b.val * 64 + o.val) * 32 + pp.val) * 2 + n.val) % 64 = 2 * pp.val + n.val; omega)
  rw [val_main_v29_apply, e, v28_apply]

/-- The index over (b, o, p) with the point n inserted on the last axis. -/
theorem lift_eq (h : Shape.Reduces S16384x64x32x2 [3] S16384x64x32) (b : Fin 16384) (o : Fin 64) (pp : Fin 32) (n : Fin 2) :
    h.lift (ix3 b o pp) n = ix4 b o pp n := by
  funext a
  match a with
  | ⟨0, _⟩ => rfl
  | ⟨1, _⟩ => rfl
  | ⟨2, _⟩ => rfl
  | ⟨3, _⟩ => rfl

/-- THE REFERENCE IS THE CENTRED FORM: its result, as the stages compose it, is refG of the four arguments it reads. -/
theorem ref_is_spec : val_main_v30 (F := Ideal) a0 a2 a3 a4 = Cert.Spec.refG a0 a2 a3 a4 := by
  funext i
  obtain ⟨b, o, pp, rfl⟩ : ∃ (b : Fin 16384) (o : Fin 64) (pp : Fin 32), i = ix3 b o pp := ⟨_, _, _, eq_ix3 i⟩
  rw [refG_apply]
  unfold val_main_v30
  have h : Shape.Reduces S16384x64x32x2 [3] S16384x64x32 := by decide
  refine (Host.reduce_eq_fold_single FloatOps.maximumf _ _ reducesTo_S16384x64x32x2_S16384x64x32_d3 h h_S_
    (ix3 b o pp)).trans ?_
  refine (fold_maximumf_two _ _ ofBits_neg_inf).trans ?_
  exact congrArg₂ max ((congrArg _ (lift_eq h b o pp 0)).trans (v29_apply a0 a2 a3 a4 b o pp 0))
    ((congrArg _ (lift_eq h b o pp 1)).trans (v29_apply a0 a2 a3 a4 b o pp 1))

end Cert.ReferenceIdeal.RefValue

end
-- ==== Proof.Finite.lean ====
import proofs.«173164_j41257455845539_2_alg».proof.Pre_finite_inputs
import Idealize.ShloMosaic.Lib.ReduceAll
import Idealize.ShloMosaic.Lib.ValueIdx
import Idealize.ShloMosaic.PureOps.Ideal

/-!
# The precondition says every float input is a real number

The predicate compares the absolute value of every entry of the four float inputs with +∞ and takes the
conjunction. An extended real whose absolute value max x (−x) is below ⊤ is neither ⊤ nor ⊥, so it is a real.
-/

noncomputable section

namespace Cert.Finite

open Idealize.ShloMosaic Cert.Pre_finite_inputs

instance : Subsingleton S_.Idx := ⟨fun _ _ => funext fun d => d.elim0⟩

/-- The f32 word of +∞ denotes ⊤. -/
theorem ofBits_inf : Ideal.ofBits .f32 0x7F800000#32 = ⊤ := by
  simp [Ideal.ofBits, Ideal.ieee]

/-- An extended real whose absolute value compares below +∞ is a real number. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [ofBits_inf] at h
  induction x using EReal.rec with
  | bot => exact absurd h (by show ¬ (Ideal.cmp .olt (max ⊥ (-⊥)) ⊤ = 1#1); simp [Ideal.cmp])
  | top => exact absurd h (by show ¬ (Ideal.cmp .olt (max ⊤ (-⊤)) ⊤ = 1#1); simp [Ideal.cmp])
  | coe r => exact ⟨r, rfl⟩

/-- If the predicate answers 1 then every entry of the four float inputs is a real number. -/
theorem finite_of_pre [Cert.Pre_finite_inputs.Facts] (a0 : FVec Ideal S16384x32x2x9 .f32) (a1 : IVec S16384x32 32)
    (a2 : FVec Ideal S64x9 .f32) (a3 a4 : FVec Ideal S64 .f32)
    (h : Cert.Pre_finite_inputs.fn (F := Ideal) a0 a1 a2 a3 a4 = (fun _ => 1#1)) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨h3, h7⟩, h12⟩, h17⟩ := h0
  exact ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i),
    fun i => real_of_abs_lt _ (Host.reduce_andi_all _ _ _ _ _ h17 i)⟩

end Cert.Finite

end
-- ==== Proof.lean ====
/-
  The certificate of a pillar-feature network's pooling kernel against its jnp reference, over the extended reals.

  Both programs form, for every batch entry b, pillar p, point n and output channel o, the linear layer
  x(b,p,n,o) = ∑_c P[b,p,n,c]·W[o,c]; normalise it per POSITION j = 2p+n by the mean and the variance of x over all
  (b, o); scale by γ_j, shift by β_j, clip at zero, and take the larger of the two points n. The reference centres
  first: ((x − μ)·r)·γ + β with the variance as the mean of (x − μ)². The kernel runs twice over the pillars: a first
  region accumulates ∑x and ∑x² per position, block of 512 batch entries by block, in two scratch rows it carries from
  grid point to grid point; the host forms μ = ∑x/N, the variance ∑x²/N − μ², r = rsqrt(variance + ε), the scale γ·r and
  the shift β − (μ·γ)·r; a second region recomputes x block by block and stores max_n max(x·scale + shift, 0).
  On finite inputs the two are one function: the variance identity, (x − μ)·r·γ + β = x·(γ·r) + (β − μ·γ·r) over the
  reals (the variance is nonnegative, so r is a real number), and sums over 32 × 512 batch entries re-indexed as sums
  over 16384.

  The frames of the two kernel programs are the run of @main as two host stretches and two kernel regions; the
  reference's frame is its run with the result dropped; the idealization rewrote nothing.
-/
import proofs.«173164_j41257455845539_2_alg».proof.Defs
import proofs.«173164_j41257455845539_2_alg».proof.Proof.Gen.Kernel
import proofs.«173164_j41257455845539_2_alg».proof.Proof.Gen.KernelIdeal
import proofs.«173164_j41257455845539_2_alg».proof.Proof.Gen.ReferenceIdeal
import proofs.«173164_j41257455845539_2_alg».proof.Proof.Gen.Pre_finite_inputs
import proofs.«173164_j41257455845539_2_alg».proof.Proof.Gen.ReferenceIdeal.Run
import proofs.«173164_j41257455845539_2_alg».proof.Proof.KFrame
import proofs.«173164_j41257455845539_2_alg».proof.Proof.KIFrame
import proofs.«173164_j41257455845539_2_alg».proof.Proof.KIKernelValue
import proofs.«173164_j41257455845539_2_alg».proof.Proof.RefIsSpec
import proofs.«173164_j41257455845539_2_alg».proof.Proof.Finite
import proofs.«173164_j41257455845539_2_alg».proof.Proof.Spec

noncomputable section

namespace Cert.Proof

open Idealize.ShloMosaic Idealize.ShloMosaic.TcCoe Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, on finite inputs, the kernel's result array and the reference's are the same function
    of the arguments: the folded form of the normalisation for the kernel, the centred form for the reference. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.kernelG (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Value.kernel_value m c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨hP, hW, hγ, hβ⟩ := Cert.Finite.finite_of_pre _ _ _ _ _ (hpre c)
    rw [Cert.ReferenceIdeal.Read.val_main_v30_eq, Cert.ReferenceIdeal.RefValue.ref_is_spec,
      (hagree c).1, (hagree c).2.2.1, (hagree c).2.2.2.1, (hagree c).2.2.2.2]
    exact (Cert.Spec.kernelG_eq_refG _ _ _ _ hP hW hγ hβ).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
